-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 57
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x128, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S1x128, .f32⟩
  | .hbm, ⟨56, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S2000x128, .f32⟩
  | .local _ .vmem, ⟨14, _⟩ => ⟨S2000x128, .f32⟩
  | .local _ .vmem, ⟨15, _⟩ => ⟨S1x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26_0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000, .i32⟩
  | .hbm, ⟨67, _⟩ => ⟨S850000, .i32⟩
  | .hbm, ⟨68, _⟩ => ⟨S850000, .i32⟩
  | .hbm, ⟨69, _⟩ => ⟨S_, .f32⟩
  | .hbm, ⟨70, _⟩ => ⟨S850000, .f32⟩
  | .hbm, ⟨71, _⟩ => ⟨S_, .f32⟩
  | .hbm, ⟨72, _⟩ => ⟨S50000, .f32⟩
  | .hbm, ⟨73, _⟩ => ⟨S850000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000, .f32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x1, .f32⟩
  | .hbm, ⟨108, _⟩ => ⟨S850000x128, .f32⟩
  | .hbm, ⟨109, _⟩ => ⟨S850000x128, .f32⟩
  | .hbm, ⟨110, _⟩ => ⟨S_, .f32⟩
  | .hbm, ⟨111, _⟩ => ⟨S50000x128, .f32⟩
  | .hbm, ⟨112, _⟩ => ⟨S850000x1, .i32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with its result named.  Every weakly fair execution of the program — three regions among
  stretches of host operations — terminates without a fault, leaves the argument arrays as launched, and leaves the
  result buffer at what the last region's write-backs make of it: the buffer contents at the last segment boundary,
  read at the result's reference.  The run is the launch of the generated segments; only the final state's reading
  also takes the result buffer.
-/
import proofs.«138598_j40003325395140_2_alg».proof.Proof.Gen.KernelIdeal.Frame

set_option maxRecDepth 16384

noncomputable section

namespace Cert.Gcn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the arguments unchanged. -/
theorem run : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.Gcn.KRun

end
-- ==== Proof.LibReals.lean ====
/-
  Extended reals that are real numbers. At the ideal float values every float is an extended real; a
  value is FINITE when it is the image of a real number. This module collects, with no reference to any
  program: the predicate "every entry of a family is a real" and its closure under the exact operations
  (sum, product, difference, maximum, finite sums, division by a nonzero real, reciprocal square root
  of a positive real); the coercion of a finite real sum; and the identity between the two textbook
  forms of the variance of a finite family, (1/N) Σ (xᵢ − μ)² = (1/N) Σ xᵢ² − μ² with μ = (1/N) Σ xᵢ,
  first over the reals and then over real-valued extended reals, where each quotient is the ideal
  division and each sum may carry a leading zero summand; the variance is a real and is not negative.
-/
import Idealize.ShloMosaic.PureOps.Ideal

noncomputable section

namespace Cert.Reals

open Idealize.ShloMosaic
open scoped BigOperators

/-- An extended real that is (the image of) a real number. -/
def IsRealS (x : EReal) : Prop := ∃ r : ℝ, x = (r : EReal)

/-- Every entry of a family of extended reals is a real number. -/
def IsReal {ι : Type*} (f : ι → EReal) : Prop := ∀ i, ∃ r : ℝ, f i = (r : EReal)

/-- A family is real exactly when each entry is. -/
theorem isReal_iff {ι : Type*} (f : ι → EReal) : IsReal f ↔ ∀ i, IsRealS (f i) := Iff.rfl

/-- An entry of a real family is a real. -/
theorem IsReal.apply {ι : Type*} {f : ι → EReal} (h : IsReal f) (i : ι) : IsRealS (f i) := h i

/-- A real family is the coercion of a family of reals. -/
theorem IsReal.exists_eq {ι : Type*} {f : ι → EReal} (h : IsReal f) : ∃ r : ι → ℝ, f = fun i => (r i : EReal) := by
  choose r hr using h
  exact ⟨r, funext hr⟩

/-- The coercion of a family of reals is a real family. -/
theorem isReal_coe {ι : Type*} (r : ι → ℝ) : IsReal (fun i => (r i : EReal)) := fun i => ⟨r i, rfl⟩

/-- Re-indexing a real family gives a real family. -/
theorem IsReal.comp {ι κ : Type*} {f : ι → EReal} (h : IsReal f) (g : κ → ι) : IsReal (fun k => f (g k)) :=
  fun k => h (g k)

/-- A real number is a real. -/
theorem isRealS_coe (r : ℝ) : IsRealS (r : EReal) := ⟨r, rfl⟩

/-- Zero is a real. -/
theorem isRealS_zero : IsRealS 0 := ⟨0, rfl⟩

/-- One is a real. -/
theorem isRealS_one : IsRealS 1 := ⟨1, rfl⟩

/-- A real is not the upper infinity. -/
theorem IsRealS.ne_top {x : EReal} (h : IsRealS x) : x ≠ ⊤ := by
  obtain ⟨r, rfl⟩ := h; exact EReal.coe_ne_top r

/-- A real is not the lower infinity. -/
theorem IsRealS.ne_bot {x : EReal} (h : IsRealS x) : x ≠ ⊥ := by
  obtain ⟨r, rfl⟩ := h; exact EReal.coe_ne_bot r

/-- An extended real that is neither infinity is a real. -/
theorem isRealS_of_ne {x : EReal} (ht : x ≠ ⊤) (hb : x ≠ ⊥) : IsRealS x := by
  induction x using EReal.rec with
  | bot => exact absurd rfl hb
  | top => exact absurd rfl ht
  | coe r => exact ⟨r, rfl⟩

/-- The sum of two reals is a real. -/
theorem IsRealS.add {x y : EReal} (hx : IsRealS x) (hy : IsRealS y) : IsRealS (x + y) := by
  obtain ⟨a, rfl⟩ := hx; obtain ⟨b, rfl⟩ := hy
  exact ⟨a + b, (EReal.coe_add a b).symm⟩

/-- The product of two reals is a real. -/
theorem IsRealS.mul {x y : EReal} (hx : IsRealS x) (hy : IsRealS y) : IsRealS (x * y) := by
  obtain ⟨a, rfl⟩ := hx; obtain ⟨b, rfl⟩ := hy
  exact ⟨a * b, (EReal.coe_mul a b).symm⟩

/-- The negation of a real is a real. -/
theorem IsRealS.neg {x : EReal} (hx : IsRealS x) : IsRealS (-x) := by
  obtain ⟨a, rfl⟩ := hx
  exact ⟨-a, (EReal.coe_neg a).symm⟩

/-- The difference of two reals (the extended reals' subtraction, which the ideal values' subtraction is)
    is a real. -/
theorem IsRealS.sub {x y : EReal} (hx : IsRealS x) (hy : IsRealS y) : IsRealS (x - y) := by
  obtain ⟨a, rfl⟩ := hx; obtain ⟨b, rfl⟩ := hy
  exact ⟨a - b, (EReal.coe_sub a b).symm⟩

/-- The maximum of two reals is a real. -/
theorem IsRealS.max {x y : EReal} (hx : IsRealS x) (hy : IsRealS y) : IsRealS (max x y) := by
  rcases max_choice x y with h | h <;> rw [h] <;> assumption

/-- The minimum of two reals is a real. -/
theorem IsRealS.min {x y : EReal} (hx : IsRealS x) (hy : IsRealS y) : IsRealS (min x y) := by
  rcases min_choice x y with h | h <;> rw [h] <;> assumption

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_fintype_sum {ι : Type*} [Fintype ι] (f : ι → ℝ) :
    ((∑ i, f i : ℝ) : EReal) = ∑ i, (f i : EReal) := coe_finset_sum Finset.univ f

/-- A finite sum of reals is a real. -/
theorem isRealS_sum {ι : Type*} (s : Finset ι) (f : ι → EReal) (h : ∀ i ∈ s, IsRealS (f i)) :
    IsRealS (∑ i ∈ s, f i) := by
  classical
  induction s using Finset.induction_on with
  | empty => simpa using isRealS_zero
  | insert a s ha ih =>
    rw [Finset.sum_insert ha]
    exact (h a (Finset.mem_insert_self a s)).add (ih fun i hi => h i (Finset.mem_insert_of_mem hi))

/-- A sum over a finite set of entries of a real family is a real. -/
theorem IsReal.sum {ι : Type*} {f : ι → EReal} (h : IsReal f) (s : Finset ι) : IsRealS (∑ i ∈ s, f i) :=
  isRealS_sum s f fun i _ => h i

/-- A sum over a whole finite type of entries of a real family is a real. -/
theorem IsReal.sum_univ {ι : Type*} [Fintype ι] {f : ι → EReal} (h : IsReal f) : IsRealS (∑ i, f i) :=
  h.sum Finset.univ

/-- A finite sum of extended reals that are not negative is not negative. -/
theorem sum_nonneg {ι : Type*} (s : Finset ι) (f : ι → EReal) (h : ∀ i ∈ s, 0 ≤ f i) : 0 ≤ ∑ i ∈ s, f i :=
  Finset.sum_nonneg h

/-- The ideal quotient of two reals, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The ideal quotient of a real by a nonzero real number is a real. -/
theorem IsRealS.div_coe {x : EReal} (hx : IsRealS x) {n : ℝ} (hn : n ≠ 0) : IsRealS (Ideal.div x (n : EReal)) := by
  obtain ⟨a, rfl⟩ := hx
  exact ⟨a / n, div_coe_coe a hn⟩

/-- The ideal quotient of a real by a real that is not zero is a real. -/
theorem IsRealS.div {x y : EReal} (hx : IsRealS x) (hy : IsRealS y) (hy0 : y ≠ 0) : IsRealS (Ideal.div x y) := by
  obtain ⟨n, rfl⟩ := hy
  exact hx.div_coe (by rintro rfl; exact hy0 rfl)

/-- The ideal quotient of a real that is not negative by a positive real is not negative. -/
theorem div_coe_nonneg {a n : ℝ} (ha : 0 ≤ a) (hn : 0 < n) : (0 : EReal) ≤ Ideal.div (a : EReal) (n : EReal) := by
  rw [div_coe_coe a hn.ne']
  exact EReal.coe_nonneg.mpr (div_nonneg ha hn.le)

/-- The ideal reciprocal square root of a positive real is the real reciprocal of its square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The ideal reciprocal square root of a positive real is a real. -/
theorem IsRealS.rsqrt {x : EReal} (hx : IsRealS x) (hpos : 0 < x) : IsRealS (Ideal.rsqrt x) := by
  obtain ⟨r, rfl⟩ := hx
  exact ⟨_, rsqrt_coe_pos (EReal.coe_pos.mp hpos)⟩

/-- The host's reciprocal square root at the ideal values is the same function. -/
theorem IsRealS.hostRsqrt {φ : FTy} {x : Ideal φ} (hx : IsRealS x) (hpos : (0 : EReal) < x) :
    IsRealS (FloatOps.hostUnary (F := Ideal) .rsqrt x) := by
  rw [Ideal.hostUnary_rsqrt_def]; exact hx.rsqrt hpos

/-- The ideal reciprocal square root of a positive real is positive. -/
theorem rsqrt_pos {x : EReal} (hx : IsRealS x) (hpos : 0 < x) : 0 < Ideal.rsqrt x := by
  obtain ⟨r, rfl⟩ := hx
  have hr : 0 < r := EReal.coe_pos.mp hpos
  rw [rsqrt_coe_pos hr]
  exact EReal.coe_pos.mpr (inv_pos.mpr (Real.sqrt_pos.mpr hr))

/-- An extended real that is not negative plus a positive one is positive. -/
theorem add_pos_of_nonneg_of_pos {v e : EReal} (hv : 0 ≤ v) (he : 0 < e) : 0 < v + e := by
  calc (0 : EReal) < e := he
    _ = 0 + e := (zero_add e).symm
    _ ≤ v + e := add_le_add hv le_rfl

/-- An extended real that is not negative, plus one, is at least one. -/
theorem one_le_add_one_of_nonneg {c : EReal} (hc : 0 ≤ c) : 1 ≤ c + 1 := by
  calc (1 : EReal) = 0 + 1 := (zero_add 1).symm
    _ ≤ c + 1 := add_le_add hc le_rfl

/-- An extended real that is at least one is positive. -/
theorem pos_of_one_le {x : EReal} (h : 1 ≤ x) : 0 < x := lt_of_lt_of_le zero_lt_one h

/-! ## The variance identity -/

/-- THE VARIANCE IDENTITY over the reals: for a finite family of N reals, N not zero, the mean of the
    squared deviations from the mean is the mean of the squares minus the square of the mean. -/
theorem variance_real {ι : Type*} [Fintype ι] (f : ι → ℝ) (N : ℝ) (hN : N = Fintype.card ι) (hN0 : N ≠ 0) :
    (∑ i, (f i - (∑ j, f j) / N) * (f i - (∑ j, f j) / N)) / N
      = (∑ i, f i * f i) / N - ((∑ j, f j) / N) * ((∑ j, f j) / N) := by
  have h1 : ∑ i, (f i - (∑ j, f j) / N) * (f i - (∑ j, f j) / N)
      = (∑ i, f i * f i) - 2 * ((∑ j, f j) / N) * (∑ j, f j) + N * (((∑ j, f j) / N) * ((∑ j, f j) / N)) := by
    have h2 : ∀ i, (f i - (∑ j, f j) / N) * (f i - (∑ j, f j) / N)
        = f i * f i - 2 * ((∑ j, f j) / N) * f i + ((∑ j, f j) / N) * ((∑ j, f j) / N) := fun i => by ring
    simp only [h2]
    rw [Finset.sum_add_distrib, Finset.sum_sub_distrib, ← Finset.mul_sum, Finset.sum_const, Finset.card_univ,
      nsmul_eq_mul, ← hN]
  rw [h1]
  field_simp
  ring

/-- The mean of the squared deviations is not negative. -/
theorem variance_real_nonneg {ι : Type*} [Fintype ι] (f : ι → ℝ) (N : ℝ) (hN0 : 0 < N) :
    0 ≤ (∑ i, (f i - (∑ j, f j) / N) * (f i - (∑ j, f j) / N)) / N :=
  div_nonneg (Finset.sum_nonneg fun i _ => mul_self_nonneg _) hN0.le

/-- The variance of a family of reals, in the deviation form. -/
def varR {ι : Type*} [Fintype ι] (f : ι → ℝ) (N : ℝ) : ℝ :=
  (∑ i, (f i - (∑ j, f j) / N) * (f i - (∑ j, f j) / N)) / N

/-- It is not negative. -/
theorem varR_nonneg {ι : Type*} [Fintype ι] (f : ι → ℝ) {N : ℝ} (hN0 : 0 < N) : 0 ≤ varR f N :=
  variance_real_nonneg f N hN0

/-- The deviation form of the variance over real-valued extended reals, each quotient the ideal division
    and each difference the extended reals' subtraction, is the coercion of the real variance. -/
theorem variance_dev_coe {ι : Type*} [Fintype ι] (r : ι → ℝ) {N : ℝ} (hN0 : N ≠ 0) :
    Ideal.div (∑ i, ((r i : EReal) - Ideal.div (∑ j, (r j : EReal)) (N : EReal))
        * ((r i : EReal) - Ideal.div (∑ j, (r j : EReal)) (N : EReal))) (N : EReal)
      = ((varR r N : ℝ) : EReal) := by
  rw [← coe_fintype_sum, div_coe_coe _ hN0]
  simp only [← EReal.coe_sub, ← EReal.coe_mul]
  rw [← coe_fintype_sum, div_coe_coe _ hN0]
  rfl

/-- The moment form of the variance over real-valued extended reals is the coercion of the real variance,
    when the divisor is the number of entries. -/
theorem variance_mom_coe {ι : Type*} [Fintype ι] (r : ι → ℝ) {N : ℝ} (hN : N = Fintype.card ι) (hN0 : N ≠ 0) :
    Ideal.div (∑ i, (r i : EReal) * (r i : EReal)) (N : EReal)
        - Ideal.div (∑ j, (r j : EReal)) (N : EReal) * Ideal.div (∑ j, (r j : EReal)) (N : EReal)
      = ((varR r N : ℝ) : EReal) := by
  simp only [← EReal.coe_mul]
  rw [← coe_fintype_sum, ← coe_fintype_sum, div_coe_coe _ hN0, div_coe_coe _ hN0, ← EReal.coe_mul, ← EReal.coe_sub,
    varR, variance_real r N hN hN0]

/-- THE VARIANCE IDENTITY over real-valued extended reals: the deviation form (the mean of the squared
    differences from the mean) is the moment form (the mean of the squares minus the squared mean); every
    quotient is the ideal division by the real N, the number of entries. -/
theorem variance_ereal {ι : Type*} [Fintype ι] (x : ι → EReal) (hx : IsReal x) {N : ℝ} (hN : N = Fintype.card ι)
    (hN0 : N ≠ 0) :
    Ideal.div (∑ i, (x i - Ideal.div (∑ j, x j) (N : EReal)) * (x i - Ideal.div (∑ j, x j) (N : EReal))) (N : EReal)
      = Ideal.div (∑ i, x i * x i) (N : EReal) - Ideal.div (∑ j, x j) (N : EReal) * Ideal.div (∑ j, x j) (N : EReal) := by
  obtain ⟨r, rfl⟩ := hx.exists_eq
  rw [variance_dev_coe r hN0, variance_mom_coe r hN hN0]

/-- The same with every sum carrying the leading zero summand of a host reduction. -/
theorem variance_ereal_zero_add {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (0 + ∑ i, x i * x i) (N : EReal)
          - Ideal.div (0 + ∑ j, x j) (N : EReal) * Ideal.div (0 + ∑ j, x j) (N : EReal) := by
  simp only [zero_add]
  exact variance_ereal x hx hN hN0

/-- The deviation form with the host's leading zeros is the moment form without them. -/
theorem variance_ereal_zero_add_left {ι : Type*} [Fintype ι] (x : ι → EReal) (hx : IsReal x) {N : ℝ}
    (hN : N = Fintype.card ι) (hN0 : N ≠ 0) :
    Ideal.div (0 + ∑ i, (x i - Ideal.div (0 + ∑ j, x j) (N : EReal)) * (x i - Ideal.div (0 + ∑ j, x j) (N : EReal)))
        (N : EReal)
      = Ideal.div (∑ i, x i * x i) (N : EReal) - Ideal.div (∑ j, x j) (N : EReal) * Ideal.div (∑ j, x j) (N : EReal) := by
  simp only [zero_add]
  exact variance_ereal x hx hN hN0

/-- The deviation form of the variance of a real family is a real that is not negative (N positive). -/
theorem variance_dev_real_nonneg {ι : Type*} [Fintype ι] (x : ι → EReal) (hx : IsReal x) {N : ℝ} (hN0 : 0 < N) :
    ∃ v : ℝ, 0 ≤ v ∧
      Ideal.div (∑ i, (x i - Ideal.div (∑ j, x j) (N : EReal)) * (x i - Ideal.div (∑ j, x j) (N : EReal))) (N : EReal)
        = (v : EReal) := by
  obtain ⟨r, rfl⟩ := hx.exists_eq
  exact ⟨varR r N, varR_nonneg r hN0, variance_dev_coe r hN0.ne'⟩

/-- The moment form likewise, when N is the number of entries. -/
theorem variance_mom_real_nonneg {ι : Type*} [Fintype ι] (x : ι → EReal) (hx : IsReal x) {N : ℝ}
    (hN : N = Fintype.card ι) (hN0 : 0 < N) :
    ∃ v : ℝ, 0 ≤ v ∧
      Ideal.div (∑ i, x i * x i) (N : EReal) - Ideal.div (∑ j, x j) (N : EReal) * Ideal.div (∑ j, x j) (N : EReal)
        = (v : EReal) := by
  obtain ⟨r, rfl⟩ := hx.exists_eq
  exact ⟨varR r N, varR_nonneg r hN0, variance_mom_coe r hN hN0.ne'⟩

/-- A real that is not negative, as the two facts a later step uses. -/
theorem isRealS_and_nonneg_of_exists {y : EReal} (h : ∃ v : ℝ, 0 ≤ v ∧ y = (v : EReal)) : IsRealS y ∧ 0 ≤ y := by
  obtain ⟨v, hv, rfl⟩ := h
  exact ⟨⟨v, rfl⟩, EReal.coe_nonneg.mpr hv⟩

end Cert.Reals

end
-- ==== Proof.FiniteInputs.lean ====
/-
  Finite inputs are real numbers. The precondition of the certificate says of each float input array x that
  every entry satisfies |x| < +∞, the conjunction over the entries taken by an and-reduction down to one bit,
  and the five bits joined by and. At the ideal values a float entry is an extended real, the absolute value
  is max x (−x), the pattern 0x7F800000 denotes the upper infinity ⊤, and a NaN reads as the lower infinity ⊥.
  An extended real x with max x (−x) < ⊤ is neither ⊤ (then x = ⊤ is not below ⊤) nor ⊥ (then −x = ⊤ is not
  below ⊤), so it is the image of a real number. This module proves that element fact once, lifts it to a
  whole array through the and-reduction for any shape, and reads the precondition back as: every entry of
  each of the five float inputs is a real number.
-/
import proofs.«138598_j40003325395140_2_alg».proof.Pre_finite_inputs
import Idealize.ShloMosaic.Lib.ReduceAll
import Idealize.ShloMosaic.Lib.ValueIdx
import Idealize.ShloMosaic.PureOps.Ideal
import proofs.«138598_j40003325395140_2_alg».proof.Proof.LibReals

noncomputable section

namespace Cert.Gcn.Finite

open Idealize.ShloMosaic
open Cert.Reals

/-- The 32-bit pattern of +∞ denotes the upper infinity of the extended reals. -/
theorem ofBits_inf : Ideal.ofBits .f32 0x7F800000#32 = (⊤ : EReal) := by
  simp [Ideal.ofBits, Ideal.ieee]

/-- An extended real whose absolute value max x (−x) is below ⊤ is a real number: x < ⊤ excludes ⊤, and
    −x < ⊤ excludes ⊥, whose negation is ⊤. -/
theorem isRealS_of_abs_lt_top (x : EReal) (h : max x (-x) < ⊤) : IsRealS x := by
  rw [max_lt_iff] at h
  refine isRealS_of_ne (ne_of_lt h.1) ?_
  rintro rfl
  exact absurd h.2 (by simp)

/-- The element fact: when the comparison |x| < +∞ of one ideal value gives the bit 1, x is a real number. -/
theorem isRealS_of_abs_olt_inf (x : Ideal .f32)
    (h : FloatOps.cmpf .olt (FloatOps.hostAbsf x) (FloatOps.ofBits (F := Ideal) .f32 0x7F800000#32) = 1#1) :
    IsRealS (x : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact isRealS_of_abs_lt_top x hlt
  · simp [hlt] at h'

/-- The array fact, for any shapes: when the and-reduction over all axes of the entrywise comparison
    |x| < +∞ (the +∞ a broadcast constant) gives 1, every entry of x is a real number. -/
theorem isReal_of_all {s t u v : Shape} [Subsingleton t.Idx] {axes : List (Fin s.rank)}
    (x : FVec Ideal s .f32) (dims : Fin v.rank → Fin s.rank) (hb : v.BroadcastsInDim s dims)
    (init : IVec u 1) (hr : s.ReducesTo axes t) (hu : 0 < u.numel) (j : t.Idx)
    (e : Host.reduce IntOp.andi
          (cmpf .olt (Host.absf x) (broadcastInDim s dims hb (constant (F := Ideal) v .f32 0x7F800000#32)))
          init hr hu j = 1#1) :
    IsReal x := by
  intro i
  have hi := Host.reduce_andi_all _ init hr hu j e i
  exact isRealS_of_abs_olt_inf (x i) hi

/-- The rank-0 shape has one index. -/
instance : Subsingleton Cert.Pre_finite_inputs.S_.Idx := ⟨fun a b => funext fun d => d.elim0⟩

/-- THE PRECONDITION READ BACK: when the predicate "every float input is finite" holds at the ideal
    values, every entry of each of the five float inputs is a real number. -/
theorem real_of_pre [Cert.Pre_finite_inputs.Facts]
    (a0 : FVec Ideal Cert.Pre_finite_inputs.S50000x256 .f32) (a1 : IVec Cert.Pre_finite_inputs.S2x800000 32)
    (a2 : FVec Ideal Cert.Pre_finite_inputs.S256x128 .f32) (a3 : FVec Ideal Cert.Pre_finite_inputs.S128 .f32)
    (a4 : FVec Ideal Cert.Pre_finite_inputs.S128x128 .f32) (a5 : FVec Ideal Cert.Pre_finite_inputs.S128 .f32)
    (h : Cert.Pre_finite_inputs.fn (F := Ideal) a0 a1 a2 a3 a4 a5 = fun _ => 1#1) :
    IsReal a0 ∧ IsReal a2 ∧ IsReal a3 ∧ IsReal a4 ∧ IsReal a5 := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨isReal_of_all a0 _ _ _ _ _ _ h1, isReal_of_all a2 _ _ _ _ _ _ h2, isReal_of_all a3 _ _ _ _ _ _ h3,
    isReal_of_all a4 _ _ _ _ _ _ h4, isReal_of_all a5 _ _ _ _ _ _ h5⟩

end Cert.Gcn.Finite

end
-- ==== Proof.LibIdxSums.lean ====
/-
  Sums over the entries of a vector and of a one-row matrix.

  An index of a vector of n entries is its one coordinate, and an index of a matrix [1, n] is its column (the row
  coordinate can only be 0). So a sum over all entries of such an array, in any commutative additive monoid, is the
  sum over the n positions: what a total sum of an array of shape [n] or [1, n] comes to, entry by entry.
-/
import Idealize.ShloMosaic.Lib.ValueIdx
import Mathlib.Algebra.BigOperators.Fin

noncomputable section

namespace Cert.Lib.IdxSums

open Idealize.ShloMosaic Idealize.ShloMosaic.ValueIdx
open scoped BigOperators

/-- A sum over the indices of a vector of n entries is the sum over its n positions. -/
theorem sum_idx1 {M : Type*} [AddCommMonoid M] {n : Nat} (f : (⟨1, ![n]⟩ : Shape).Idx → M) :
    ∑ j, f j = ∑ e : Fin n, f (ix1 e) :=
  Fintype.sum_equiv ⟨fun j => j 0, ix1, fun j => (eq_ix1 j).symm, fun _ => rfl⟩ f (fun e => f (ix1 e))
    (fun j => congrArg f (eq_ix1 j))

/-- A sum over the indices of a one-row matrix of n entries is the sum over its n columns. -/
theorem sum_row {M : Type*} [AddCommMonoid M] {n : Nat} (f : (⟨2, ![1, n]⟩ : Shape).Idx → M) :
    ∑ i, f i = ∑ e : Fin n, f (ix2 (0 : Fin 1) e) := by
  rw [sum_idx2, Fin.sum_univ_one]

end Cert.Lib.IdxSums

end
-- ==== Proof.LibScatterAdd.lean ====
/-
  The host's accumulating scatter (a segment sum) read at an index, at the ideal values.

  For an operand of N entries, a column of scatter indices `idx : [E, 1]` and E updates, the scatter with
  inserted window axis 0, scatter-dims-to-operand-dims [0] and index-vector axis 1 adds update e into the
  entry that the index word `idx[e, 0]`, read signed, names; an update whose word names no entry (negative,
  or N and beyond) is dropped — a scatter does not clamp.  At the ideal values the result at entry i is the
  operand's entry plus the plain sum, over all e, of the updates whose word names i: no order of addition is
  left in it.  The row form does the same for an [N, C] operand and [E, C] updates (update window axis 1):
  row e of the updates is added into the row its word names, lane by lane.
-/
import Idealize.ShloMosaic.Lib.ValueIdx
import Idealize.ShloMosaic.PureOps.Ideal
import Mathlib.Algebra.BigOperators.Fin
import proofs.«138598_j40003325395140_2_alg».proof.Proof.LibIdxSums

noncomputable section

namespace Cert.Lib.ScatterAdd

open Idealize.ShloMosaic Idealize.ShloMosaic.ValueIdx
open scoped BigOperators

/-- The dimension numbers of an entry scatter into a vector [N] at scatter indices [E, 1] of updates [E]; their
    conditions `wf` are decided on a program's literal shapes. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of a row scatter into a table [N, C] at scatter indices [E, 1] of updates [E, C]. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- Update e of an entry scatter lands at the position its index word, read signed, names. -/
theorem vec_landing (idx : IVec ⟨2, ![E, 1]⟩ w) (e : Fin E) (a : Fin 1) :
    (vecDims N E wf).start (ix1 e) idx a + ((vecDims N E wf).window (ix1 e) a : Int)
      = (idx (ix2 e (0 : Fin 1))).toInt := by
  obtain rfl : a = 0 := Subsingleton.elim _ _
  have h1 : (vecDims N E wf).start (ix1 e) idx 0 = (idx (ix2 e (0 : Fin 1))).toInt := by
    unfold ScatterDims.start
    rw [dif_pos (show (0 : Fin 1) ∈ (vecDims N E wf).scatterDimsToOperandDims from List.mem_singleton.mpr rfl)]
    have hsi : (vecDims N E wf).siIdx (ix1 e) ⟨List.idxOf (0 : Fin 1) (vecDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (vecDims N E wf).window (ix1 e) 0 = 0 := by
    unfold ScatterDims.window
    rw [dif_neg (fun h => by simp [Shape.kept] at h)]
  rw [h1, h2]; simp

/-- Update e lands on entry i exactly when its index word, read signed, is i. -/
theorem vec_resultIdx_iff (idx : IVec ⟨2, ![E, 1]⟩ w) (e : Fin E) (i : (⟨1, ![N]⟩ : Shape).Idx) :
    (vecDims N E wf).resultIdx? (ix1 e) idx = some i ↔ (idx (ix2 e (0 : Fin 1))).toInt = ((i 0).val : Int) := by
  unfold ScatterDims.resultIdx?
  split
  · next h =>
    rw [Option.some.injEq]
    constructor
    · intro hf
      have h0 := congrArg (fun g : (⟨1, ![N]⟩ : Shape).Idx => (g 0).val) hf
      simp only at h0
      have hl := vec_landing wf idx e 0
      have hp := (h 0).1
      rw [hl] at h0 hp
      omega
    · intro hv
      funext a
      obtain rfl : a = 0 := Subsingleton.elim _ _
      refine Fin.ext ?_
      show ((vecDims N E wf).start (ix1 e) idx 0 + ((vecDims N E wf).window (ix1 e) 0 : Int)).toNat = (i 0).val
      rw [vec_landing wf idx e 0, hv]; simp
  · next h =>
    constructor
    · intro hf; cases hf
    · intro hv
      exfalso; apply h
      intro a
      obtain rfl : a = 0 := Subsingleton.elim _ _
      rw [vec_landing wf idx e 0, hv]
      exact ⟨Int.natCast_nonneg _, by exact_mod_cast (i 0).isLt⟩

/-- THE ENTRY SCATTER-ADD READ AT i: the operand's entry plus the sum of the updates whose word names i. -/
theorem scatterAdd_vec_apply {φ : FTy} (x : FVec Ideal ⟨1, ![N]⟩ φ) (idx : IVec ⟨2, ![E, 1]⟩ w)
    (upd : FVec Ideal ⟨1, ![E]⟩ φ) (i : (⟨1, ![N]⟩ : Shape).Idx) :
    (Host.scatterAdd (vecDims N E wf) x idx upd i : EReal)
      = x i + ∑ e : Fin E, if (idx (ix2 e (0 : Fin 1))).toInt = ((i 0).val : Int) then (upd (ix1 e) : EReal) else 0 := by
  show Ideal.hostScatterAdd (vecDims N E wf) x idx upd i = _
  unfold Ideal.hostScatterAdd
  congr 1
  rw [Finset.sum_filter]
  rw [Cert.Lib.IdxSums.sum_idx1]
  refine Finset.sum_congr rfl fun e _ => ?_
  simp only [vec_resultIdx_iff wf idx e i]

end Vec

section Row
variable {N E C w : Nat} (wf : ScatterDims.WF ⟨2, ![N, C]⟩ ⟨2, ![E, 1]⟩ ⟨2, ![E, C]⟩ [1] [0] [0] 1)

/-- Row e of the updates lands in the row its index word, read signed, names… -/
theorem row_landing0 (idx : IVec ⟨2, ![E, 1]⟩ w) (e : Fin E) (q : Fin C) :
    (rowDims N E C wf).start (ix2 e q) idx 0 + ((rowDims N E C wf).window (ix2 e q) 0 : Int)
      = (idx (ix2 e (0 : Fin 1))).toInt := by
  have h1 : (rowDims N E C wf).start (ix2 e q) idx 0 = (idx (ix2 e (0 : Fin 1))).toInt := by
    unfold ScatterDims.start
    rw [dif_pos (show (0 : Fin 2) ∈ (rowDims N E C wf).scatterDimsToOperandDims from List.mem_singleton.mpr rfl)]
    have hsi : (rowDims N E C wf).siIdx (ix2 e q) ⟨List.idxOf (0 : Fin 2) (rowDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have h2 : (rowDims N E C wf).window (ix2 e q) 0 = 0 := by
    unfold ScatterDims.window
    rw [dif_neg (fun h => by simp [Shape.kept] at h)]
  rw [h1, h2]; simp

/-- …lane for lane. -/
theorem row_landing1 (idx : IVec ⟨2, ![E, 1]⟩ w) (e : Fin E) (q : Fin C) :
    (rowDims N E C wf).start (ix2 e q) idx 1 + ((rowDims N E C wf).window (ix2 e q) 1 : Int) = (q.val : Int) := by
  have h1 : (rowDims N E C wf).start (ix2 e q) idx 1 = 0 := by
    unfold ScatterDims.start
    rw [dif_neg (fun h => absurd (show (1 : Nat) = 0 from congrArg Fin.val (List.mem_singleton.mp h)) Nat.one_ne_zero)]
  have h2 : (rowDims N E C wf).window (ix2 e q) 1 = q.val := by
    unfold ScatterDims.window
    rw [dif_pos (show (1 : Fin 2) ∈ (rowDims N E C wf).sKept by simp [Shape.kept])]
    rfl
  rw [h1, h2]; simp

/-- Update (e, q) lands on entry (r, c) exactly when its row's index word, read signed, is r and q = c. -/
theorem row_resultIdx_iff (idx : IVec ⟨2, ![E, 1]⟩ w) (e : Fin E) (q : Fin C) (r : Fin N) (c : Fin C) :
    (rowDims N E C wf).resultIdx? (ix2 e q) idx = some (ix2 r c)
      ↔ (idx (ix2 e (0 : Fin 1))).toInt = (r.val : Int) ∧ q = c := by
  unfold ScatterDims.resultIdx?
  split
  · next h =>
    rw [Option.some.injEq]
    constructor
    · intro hf
      have h0 := congrArg (fun g : (⟨2, ![N, C]⟩ : Shape).Idx => (g 0).val) hf
      have h1 := congrArg (fun g : (⟨2, ![N, C]⟩ : Shape).Idx => (g 1).val) hf
      simp only at h0 h1
      have hp := (h 0).1
      rw [row_landing0 wf idx e q] at h0 hp
      rw [row_landing1 wf idx e q] at h1
      refine ⟨?_, Fin.ext ?_⟩
      · change ((idx (ix2 e (0 : Fin 1))).toInt).toNat = r.val at h0
        omega
      · change ((q.val : Int)).toNat = c.val at h1
        omega
    · rintro ⟨hv, rfl⟩
      funext a
      refine Fin.ext ?_
      match a with
      | ⟨0, _⟩ =>
        show ((rowDims N E C wf).start (ix2 e q) idx 0 + ((rowDims N E C wf).window (ix2 e q) 0 : Int)).toNat = r.val
        rw [row_landing0 wf idx e q, hv]; simp
      | ⟨1, _⟩ =>
        show ((rowDims N E C wf).start (ix2 e q) idx 1 + ((rowDims N E C wf).window (ix2 e q) 1 : Int)).toNat = q.val
        rw [row_landing1 wf idx e q]; simp
  · next h =>
    constructor
    · intro hf; cases hf
    · rintro ⟨hv, rfl⟩
      exfalso; apply h
      intro a
      match a with
      | ⟨0, _⟩ =>
        show 0 ≤ (rowDims N E C wf).start (ix2 e q) idx 0 + ((rowDims N E C wf).window (ix2 e q) 0 : Int)
          ∧ (rowDims N E C wf).start (ix2 e q) idx 0 + ((rowDims N E C wf).window (ix2 e q) 0 : Int) < (N : Int)
        rw [row_landing0 wf idx e q, hv]
        exact ⟨Int.natCast_nonneg _, by exact_mod_cast r.isLt⟩
      | ⟨1, _⟩ =>
        show 0 ≤ (rowDims N E C wf).start (ix2 e q) idx 1 + ((rowDims N E C wf).window (ix2 e q) 1 : Int)
          ∧ (rowDims N E C wf).start (ix2 e q) idx 1 + ((rowDims N E C wf).window (ix2 e q) 1 : Int) < (C : Int)
        rw [row_landing1 wf idx e q]
        exact ⟨Int.natCast_nonneg _, by exact_mod_cast q.isLt⟩

/-- THE ROW SCATTER-ADD READ AT (r, c): the operand's entry plus the sum, over the update rows whose word names
    row r, of their lane c. -/
theorem scatterAdd_rows_apply {φ : FTy} (x : FVec Ideal ⟨2, ![N, C]⟩ φ) (idx : IVec ⟨2, ![E, 1]⟩ w)
    (upd : FVec Ideal ⟨2, ![E, C]⟩ φ) (r : Fin N) (c : Fin C) :
    (Host.scatterAdd (rowDims N E C wf) x idx upd (ix2 r c) : EReal)
      = x (ix2 r c)
        + ∑ e : Fin E, if (idx (ix2 e (0 : Fin 1))).toInt = (r.val : Int) then (upd (ix2 e c) : EReal) else 0 := by
  show Ideal.hostScatterAdd (rowDims N E C wf) x idx upd (ix2 r c) = _
  unfold Ideal.hostScatterAdd
  congr 1
  rw [Finset.sum_filter, sum_idx2]
  refine Finset.sum_congr rfl fun e _ => ?_
  simp only [row_resultIdx_iff wf idx e _ r c]
  by_cases hv : (idx (ix2 e (0 : Fin 1))).toInt = (r.val : Int)
  · simp only [hv, true_and, if_true]
    rw [Finset.sum_ite_eq' Finset.univ c (fun q => (upd (ix2 e q) : EReal))]
    simp
  · simp only [hv, false_and, if_false, Finset.sum_const_zero]

end Row

end Cert.Lib.ScatterAdd

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.LibVecGather.lean ====
/-
  Gathering single entries of a vector.  For a vector `x : [N]` and a column of start indices `idx : [E, 1]`,
  the gather with no offset axis, collapsed axis 0, start-index map [0], index-vector axis 1 and slices of one
  entry ([1]) reads, at result index e, the vector at `idx[e, 0]` — the index word read signed and clamped into
  [0, N - 1], as every gather clamps its start indices.  This is what `x[idx]` of a one-axis array at a flat
  integer array lowers to; the clamped entry is the same `clampRow` a row gather of an [N, C] table takes.
-/
import proofs.«138598_j40003325395140_2_alg».proof.Proof.LibRowGather

noncomputable section

namespace Idealize.ShloMosaic.VecGather

open Idealize.ShloMosaic Idealize.ShloMosaic.ValueIdx Idealize.ShloMosaic.RowGather

variable {α : Type}

/-- The dimension numbers of an entry gather from a vector [N] at start indices [E, 1] into [E]; their
    conditions `wf` are decided on a program's literal shapes. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the vector at the clamped entry `idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.VecGather

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.LibRowBroadcast.lean ====
/-
  The host's broadcasts of a row and of a scalar, read at an index, generic in the extents.

  A row [1, C] broadcast onto axes 0, 1 of [R, C] reads, at (r, c), the row at (0, c): the same bias is
  added to every row.  A scalar broadcast to any shape reads the scalar everywhere.
-/
import Idealize.ShloMosaic.Lib.ValueIdx
import Idealize.ShloMosaic.Lib.Pipeline.Value

noncomputable section

namespace Cert.Lib.RowBroadcast

open Idealize.ShloMosaic Idealize.ShloMosaic.ValueIdx

variable {α : Type}

/-- A row [1, C] broadcast onto axes 0, 1 of [R, C], read at (r, c), is the row at (0, c). -/
theorem broadcastInDim_row_apply {R C : Nat} (x : (⟨2, ![1, C]⟩ : Shape).Idx → α)
    (h : (⟨2, ![1, C]⟩ : Shape).BroadcastsInDim ⟨2, ![R, C]⟩ (![0, 1] : Fin 2 → Fin 2)) (r : Fin R) (c : Fin C) :
    broadcastInDim ⟨2, ![R, C]⟩ (![0, 1] : Fin 2 → Fin 2) h x (ix2 r c) = x (ix2 0 c) :=
  broadcastInDim_apply (![0, 1] : Fin 2 → Fin 2) h x (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A scalar broadcast to any shape reads the scalar at every index. -/
theorem broadcastInDim_scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply (![] : Fin 0 → Fin t.rank) h x j k (fun a => a.elim0)

end Cert.Lib.RowBroadcast

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibGraphOps.lean ====
/-
  The host operations of a message-passing layer read at an index, for any extents.

  A graph layer on the host is built from a handful of composite steps, and each of them, read at an index, is a
  plain expression of its operands at indices:
    · a row of the [2, E] edge list, sliced out and flattened, at e is the edge list at (row, e);
    · jnp's indexing first wraps a negative index word around (w < 0 ↦ w + n), then a gather clamps it;
    · a per-edge value [M] made a column [M, 1] and spread over C lanes reads, at (e, c), the value at e;
    · a segment sum of constant updates into a constant array (the degree count) at i is the constant plus the
      sum, over the edges whose index word names i, of the update constant;
    · a segment sum of rows into a constant array (the aggregation) at (r, c) is the constant plus the sum,
      over the edges whose index word names r, of lane c of the edge's row;
    · the "where(d > 0, rsqrt(max(d, eps)), 0)" chain at i is one scalar function of d at i.
  The sums are exact sums on the extended reals: nothing depends on the order of the edges.
-/
import Idealize.ShloMosaic.Lib.ValueIdx
import Idealize.ShloMosaic.Lib.Pipeline.Value
import Idealize.ShloMosaic.PureOps.Ideal.Laws
import proofs.«138598_j40003325395140_2_alg».proof.Proof.LibScatterAdd
import proofs.«138598_j40003325395140_2_alg».proof.Proof.LibVecGather
import proofs.«138598_j40003325395140_2_alg».proof.Proof.LibHostColumns
import proofs.«138598_j40003325395140_2_alg».proof.Proof.LibRowBroadcast
import proofs.«138598_j40003325395140_2_alg».proof.Proof.LibRows

noncomputable section

namespace Cert.Lib.GraphOps

open Idealize.ShloMosaic Idealize.ShloMosaic.ValueIdx Idealize.ShloMosaic.RowGather
open Cert.Lib.HostColumns Cert.Lib.RowBroadcast Cert.Lib.ScatterAdd
open scoped BigOperators

/-- jnp's index normalisation on one word: a negative index counts from the end of an axis of extent n. -/
def wrapIdx (n : Nat) (v : BitVec 32) : BitVec 32 :=
  Scalar.select (IntOp.cmpi .slt v 0#32) (IntOp.addi v (BitVec.ofNat 32 n)) v

/-- The inverse square root of a degree, guarded as the layer guards it: 0 unless the degree is positive. -/
def invSqrtDeg (d : EReal) : EReal :=
  Scalar.select (FloatOps.cmpf (F := Ideal) (φ := .f32) .ogt d (Ideal.ofBits .f32 0x00000000#32))
    (FloatOps.hostUnary (F := Ideal) (φ := .f32) .rsqrt (FloatOps.maximumf (F := Ideal) (φ := .f32) d (Ideal.ofBits .f32 0x2B8CBCCC#32)))
    (Ideal.ofBits .f32 0x00000000#32)

section
variable {α : Type}

/-- Row o of the [2, E] edge list, sliced out as [1, E] and flattened to [E], at e: the edge list at (o, e). -/
theorem edge_row_apply {E : Nat} (o : Nat) (ho : o < 2) (x : (⟨2, ![2, E]⟩ : Shape).Idx → α)
    (hs : (⟨2, ![2, E]⟩ : Shape).Slices ![o, 0] ⟨2, ![1, E]⟩) (hc : (⟨2, ![1, E]⟩ : Shape).ShapeCasts ⟨1, ![E]⟩) (e : Fin E) :
    shapeCast ⟨1, ![E]⟩ (extractStridedSlice ⟨2, ![1, E]⟩ ![o, 0] x hs) hc (ix1 e) = x (ix2 (⟨o, ho⟩ : Fin 2) e) := by
  rw [shapeCast_apply _ hc (ix1 e) (ix2 (0 : Fin 1) e) (by
    rewrite [Shape.rowMajor_val_two, Shape.rowMajor_val_one]; show 0 * E + e.val = e.val; omega)]
  rw [Cert.Lib.Rows.slice_rows_apply x hs 0 e (by show o + 0 < 2; omega)]
  rfl

/-- A per-edge value made a column and spread over the lanes reads, at (e, c), the value at e. -/
theorem spread_apply {M C : Nat} (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, C]⟩ (![0, 1] : Fin 2 → Fin 2)) (e : Fin M) (c : Fin C) :
    broadcastInDim ⟨2, ![M, C]⟩ (![0, 1] : Fin 2 → Fin 2) h2 (broadcastInDim ⟨2, ![M, 1]⟩ (![0] : Fin 1 → Fin 2) h1 v) (ix2 e c)
      = v (ix1 e) := by
  rw [bcast_col_lanes_apply _ h2 e c 0, bcast_vec_col_apply v h1 e 0]
end

/-- The wrapped index words as a column [M, 1], at (e, 0): the word at e, wrapped. -/
theorem wrapped_col_apply {M : Nat} (n : Nat) (w : IVec ⟨1, ![M]⟩ 32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2)) (e : Fin M) :
    broadcastInDim ⟨2, ![M, 1]⟩ (![0] : Fin 1 → Fin 2) h1
        (select (cmpi .slt w (broadcastInDim ⟨1, ![M]⟩ (![] : Fin 0 → Fin 1) h0 (constantI ⟨0, ![]⟩ 32 0#32)))
          (addi w (broadcastInDim ⟨1, ![M]⟩ (![] : Fin 0 → Fin 1) h0 (constantI ⟨0, ![]⟩ 32 (BitVec.ofNat 32 n)))) w)
        (ix2 e (0 : Fin 1))
      = wrapIdx n (w (ix1 e)) := by
  rw [bcast_vec_col_apply _ h1 e 0]
  show Scalar.select (IntOp.cmpi .slt (w (ix1 e))
        (broadcastInDim ⟨1, ![M]⟩ (![] : Fin 0 → Fin 1) h0 (constantI ⟨0, ![]⟩ 32 0#32) (ix1 e)))
      (IntOp.addi (w (ix1 e))
        (broadcastInDim ⟨1, ![M]⟩ (![] : Fin 0 → Fin 1) h0 (constantI ⟨0, ![]⟩ 32 (BitVec.ofNat 32 n)) (ix1 e)))
      (w (ix1 e)) = _
  rw [broadcastInDim_scalar_apply (constantI ⟨0, ![]⟩ 32 0#32) h0 (ix1 e) ix0,
    broadcastInDim_scalar_apply (constantI ⟨0, ![]⟩ 32 (BitVec.ofNat 32 n)) h0 (ix1 e) ix0]
  rfl

/-- THE DEGREE COUNT: a segment sum of the constant `ow` per edge into the constant `zw`, at node i. -/
theorem count_apply {N M : Nat} (wf : ScatterDims.WF ⟨1, ![N]⟩ ⟨2, ![M, 1]⟩ ⟨1, ![M]⟩ [] [0] [0] 1)
    (h0N : (⟨0, ![]⟩ : Shape).BroadcastsInDim ⟨1, ![N]⟩ (![] : Fin 0 → Fin 1))
    (h0M : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (w : IVec ⟨1, ![M]⟩ 32) (zw ow : BitVec 32) (i : Fin N) :
    (Host.scatterAdd (vecDims N M wf)
        (broadcastInDim ⟨1, ![N]⟩ (![] : Fin 0 → Fin 1) h0N (constant (F := Ideal) ⟨0, ![]⟩ .f32 zw))
        (broadcastInDim ⟨2, ![M, 1]⟩ (![0] : Fin 1 → Fin 2) h1 w)
        (broadcastInDim ⟨1, ![M]⟩ (![] : Fin 0 → Fin 1) h0M (constant (F := Ideal) ⟨0, ![]⟩ .f32 ow)) (ix1 i) : EReal)
      = Ideal.ofBits .f32 zw + ∑ e : Fin M, if (w (ix1 e)).toInt = (i.val : Int) then Ideal.ofBits .f32 ow else 0 := by
  rw [scatterAdd_vec_apply wf]
  rw [broadcastInDim_scalar_apply (constant (F := Ideal) ⟨0, ![]⟩ .f32 zw) h0N (ix1 i) ix0]
  refine congrArg₂ (fun a b : EReal => a + b) rfl (Finset.sum_congr rfl fun e _ => ?_)
  rw [bcast_vec_col_apply w h1 e 0,
    broadcastInDim_scalar_apply (constant (F := Ideal) ⟨0, ![]⟩ .f32 ow) h0M (ix1 e) ix0]
  rfl

/-- THE AGGREGATION: a segment sum of per-edge rows into the constant `zw`, at (r, c). -/
theorem aggregate_apply {N M C : Nat} (wf : ScatterDims.WF ⟨2, ![N, C]⟩ ⟨2, ![M, 1]⟩ ⟨2, ![M, C]⟩ [1] [0] [0] 1)
    (h0 : (⟨0, ![]⟩ : Shape).BroadcastsInDim ⟨2, ![N, C]⟩ (![] : Fin 0 → Fin 2))
    (h1 : (⟨1, ![M]⟩ : Shape).BroadcastsInDim ⟨2, ![M, 1]⟩ (![0] : Fin 1 → Fin 2))
    (w : IVec ⟨1, ![M]⟩ 32) (upd : FVec Ideal ⟨2, ![M, C]⟩ .f32) (zw : BitVec 32) (r : Fin N) (c : Fin C) :
    (Host.scatterAdd (rowDims N M C wf)
        (broadcastInDim ⟨2, ![N, C]⟩ (![] : Fin 0 → Fin 2) h0 (constant (F := Ideal) ⟨0, ![]⟩ .f32 zw))
        (broadcastInDim ⟨2, ![M, 1]⟩ (![0] : Fin 1 → Fin 2) h1 w) upd (ix2 r c) : EReal)
      = Ideal.ofBits .f32 zw + ∑ e : Fin M, if (w (ix1 e)).toInt = (r.val : Int) then (upd (ix2 e c) : EReal) else 0 := by
  rw [scatterAdd_rows_apply wf]
  rw [broadcastInDim_scalar_apply (constant (F := Ideal) ⟨0, ![]⟩ .f32 zw) h0 (ix2 r c) ix0]
  refine congrArg₂ (fun a b : EReal => a + b) rfl (Finset.sum_congr rfl fun e _ => ?_)
  rw [bcast_vec_col_apply w h1 e 0]

/-- The guarded inverse square root of the degrees, at node i: `invSqrtDeg` of the degree at i. -/
theorem invSqrtDeg_apply {N : Nat} (h0 : (⟨0, ![]⟩ : Shape).BroadcastsInDim ⟨1, ![N]⟩ (![] : Fin 0 → Fin 1))
    (d : FVec Ideal ⟨1, ![N]⟩ .f32) (i : Fin N) :
    (select (cmpf .ogt d (broadcastInDim ⟨1, ![N]⟩ (![] : Fin 0 → Fin 1) h0 (constant (F := Ideal) ⟨0, ![]⟩ .f32 0x00000000#32)))
        (Host.rsqrt (maximumf d (broadcastInDim ⟨1, ![N]⟩ (![] : Fin 0 → Fin 1) h0 (constant (F := Ideal) ⟨0, ![]⟩ .f32 0x2B8CBCCC#32))))
        (broadcastInDim ⟨1, ![N]⟩ (![] : Fin 0 → Fin 1) h0 (constant (F := Ideal) ⟨0, ![]⟩ .f32 0x00000000#32)) (ix1 i) : EReal)
      = invSqrtDeg (d (ix1 i)) := by
  show Scalar.select (FloatOps.cmpf .ogt (d (ix1 i))
        (broadcastInDim ⟨1, ![N]⟩ (![] : Fin 0 → Fin 1) h0 (constant (F := Ideal) ⟨0, ![]⟩ .f32 0x00000000#32) (ix1 i)))
      (FloatOps.hostUnary .rsqrt (FloatOps.maximumf (d (ix1 i))
        (broadcastInDim ⟨1, ![N]⟩ (![] : Fin 0 → Fin 1) h0 (constant (F := Ideal) ⟨0, ![]⟩ .f32 0x2B8CBCCC#32) (ix1 i))))
      (broadcastInDim ⟨1, ![N]⟩ (![] : Fin 0 → Fin 1) h0 (constant (F := Ideal) ⟨0, ![]⟩ .f32 0x00000000#32) (ix1 i)) = _
  rw [broadcastInDim_scalar_apply (constant (F := Ideal) ⟨0, ![]⟩ .f32 0x00000000#32) h0 (ix1 i) ix0,
    broadcastInDim_scalar_apply (constant (F := Ideal) ⟨0, ![]⟩ .f32 0x2B8CBCCC#32) h0 (ix1 i) ix0]
  rfl

end Cert.Lib.GraphOps

end
-- ==== Proof.Spec.lean ====
/-
  A two-layer graph convolution with symmetric degree normalisation, as plain functions on the extended reals.

  A graph on 50000 nodes is given by a list of edges (s e, d e), each end an index word.  A word names a node the
  way array indexing reads it: a negative word counts from the end, and the result is clamped into the table
  (`node`).  An edge ends at node r when its end word, read signed, is exactly r; an edge whose end word names no
  node contributes nowhere.

  One layer maps node features h : [50000, 128] and a bias b to

      out r c = ( ∑ over edges e ending at r of  h (s e) c · (dv (s e) · dv (d e)) ) + b c

  where dv i = (max (deg i) 1)^(-1/2) and deg counts the edges ending at i.  Two arrangements of it appear:
    · `layerR`: the sum runs over the given edges followed by one loop edge (i, i) per node (`withLoops`), and
      the degree is the count over that whole list;
    · `layerK`: the loop edges are taken out of the sum analytically — the edge sum runs over the given edges
      only, with the factor dv r of the receiving node pulled out of it, and the loop edge of node r contributes
      (dv r · dv r) · h r c; the degree is the count over the given edges plus one.
  `outR` and `outK` are the two-layer networks built from them: features times weights, a layer, a clamp at
  zero, times weights again, a second layer.
-/
import Idealize.ShloMosaic.Lib.ValueIdx
import Idealize.ShloMosaic.PureOps.Ideal
import proofs.«138598_j40003325395140_2_alg».proof.Proof.LibGraphOps

noncomputable section

namespace Cert.Gcn

open Idealize.ShloMosaic Idealize.ShloMosaic.ValueIdx Idealize.ShloMosaic.RowGather Cert.Lib.GraphOps
open scoped BigOperators

/-- The float word of the number one, as the extended real it denotes. -/
abbrev oneW : EReal := Ideal.ofBits .f32 0x3F800000#32

/-- The float word of zero, as the extended real it denotes. -/
abbrev zeroW : EReal := Ideal.ofBits .f32 0x00000000#32

/-- The node an index word names: a negative word counts from the end, then the word is clamped into the table. -/
def node (v : BitVec 32) : Fin 50000 := clampRow 50000 (by decide) (wrapIdx 50000 v)

/-- An edge list of 800000 words followed by the words 0, 1, …, 49999: the loop edges appended. -/
def withLoops (w : Fin 800000 → BitVec 32) (e : Fin 850000) : BitVec 32 :=
  if h : e.val < 800000 then w ⟨e.val, h⟩ else BitVec.ofNat 32 (e.val - 800000)

section Lists
variable {M : Nat}

/-- The number of edges of a list that end at node i, as a sum of ones. -/
def indeg (d : Fin M → BitVec 32) (i : Fin 50000) : EReal :=
  ∑ e : Fin M, if (d e).toInt = (i.val : Int) then oneW else 0

/-- The sum, over the edges of a list that end at node r, of lane c of a per-edge message. -/
def edgeSum (d : Fin M → BitVec 32) (msg : Fin M → Fin 128 → EReal) (r : Fin 50000) (c : Fin 128) : EReal :=
  ∑ e : Fin M, if (d e).toInt = (r.val : Int) then msg e c else 0

end Lists

/-- The inverse square root of a degree, the degree guarded from below by one. -/
def rsq (x : EReal) : EReal := Ideal.rsqrt (max x oneW)

/-- A clamp at zero. -/
def relu (x : EReal) : EReal := max x zeroW

/-- Node features times a weight matrix. -/
def mm {K : Nat} (a : Fin 50000 → Fin K → EReal) (w : Fin K → Fin 128 → EReal) (r : Fin 50000) (c : Fin 128) : EReal :=
  ∑ k : Fin K, a r k * w k c

/-- One layer with the loop edges in the edge list: every edge carries its source row scaled by the product of the
    two ends' factors. -/
def layerR (s d : Fin 850000 → BitVec 32) (dv : Fin 50000 → EReal) (h : Fin 50000 → Fin 128 → EReal)
    (b : Fin 128 → EReal) (r : Fin 50000) (c : Fin 128) : EReal :=
  edgeSum d (fun e c => h (node (s e)) c * (dv (node (s e)) * dv (node (d e)))) r c + b c

/-- One layer with the loop edges taken out of the sum: the receiving node's factor outside the edge sum, the
    node's own row with the squared factor beside it. -/
def layerK (s d : Fin 800000 → BitVec 32) (dv : Fin 50000 → EReal) (h : Fin 50000 → Fin 128 → EReal)
    (b : Fin 128 → EReal) (r : Fin 50000) (c : Fin 128) : EReal :=
  (dv r * edgeSum d (fun e c => h (node (s e)) c * dv (node (s e))) r c + (dv r * dv r) * h r c) + b c

section Network
variable (x : Fin 50000 → Fin 256 → EReal) (ei : Fin 2 → Fin 800000 → BitVec 32)
  (w1 : Fin 256 → Fin 128 → EReal) (b1 : Fin 128 → EReal) (w2 : Fin 128 → Fin 128 → EReal) (b2 : Fin 128 → EReal)

/-- The degree factors, counted over the edge list with the loop edges appended. -/
def dvR (i : Fin 50000) : EReal := rsq (indeg (withLoops (ei 1)) i)

/-- The degree factors, counted over the given edges, plus one for the loop edge. -/
def dvK (i : Fin 50000) : EReal := rsq (indeg (ei 1) i + oneW)

/-- The two-layer network, loop edges in the list. -/
def outR : Fin 50000 → Fin 128 → EReal :=
  layerR (withLoops (ei 0)) (withLoops (ei 1)) (dvR ei)
    (mm (fun r k => relu (layerR (withLoops (ei 0)) (withLoops (ei 1)) (dvR ei) (mm x w1) b1 r k)) w2) b2

/-- The two-layer network, loop edges taken out analytically. -/
def outK : Fin 50000 → Fin 128 → EReal :=
  layerK (ei 0) (ei 1) (dvK ei)
    (mm (fun r k => relu (layerK (ei 0) (ei 1) (dvK ei) (mm x w1) b1 r k)) w2) b2

end Network

end Cert.Gcn

end
-- ==== Proof.Algebra.lean ====
/-
  The algebra that joins the two arrangements of the two-layer graph convolution.

  One arrangement (R) appends one loop edge (i, i) per node to the edge list and sums over the whole list; the
  other (K) sums over the given edges only, with the receiving node's factor outside the sum, and adds the loop
  edge's contribution separately. They agree on real data:
    · the word 0x3F800000 denotes the number one and the word 0 denotes zero;
    · a sum over the 850000 = 800000 + 50000 edges of the longer list is the sum over the given edges plus the
      sum over the loop edges; among the loop words 0, 1, …, 49999 exactly the word r ends at node r, so the
      second sum has one term;
    · hence the degree counted over the longer list is the degree over the given edges plus one, and the two
      families of degree factors are the same; every factor is a positive real number (a count is a finite
      sum of zeros and ones, one more is at least one, and the inverse square root of a positive real is a
      positive real);
    · a given edge ending at r has its end node equal to r, so its term carries the factor dv r; a finite sum
      of real numbers times a real number is that number times the sum (this is where real data is needed:
      the extended reals do not distribute at the infinities);
    · products, finite sums and maxima of reals are real, so the inner layer's output, clamped at zero and
      multiplied by the second weights, is again real data for the outer layer.
  The last bias is added last on both sides and needs no hypothesis.
-/
import proofs.«138598_j40003325395140_2_alg».proof.Proof.Spec
import proofs.«138598_j40003325395140_2_alg».proof.Proof.LibReals
import Idealize.ShloMosaic.Lib.Affine

noncomputable section

namespace Cert.Gcn.Algebra

open Idealize.ShloMosaic Idealize.ShloMosaic.RowGather Cert.Lib.GraphOps Cert.Reals Cert.Gcn
open scoped BigOperators

/-! ## The two constants -/

/-- The word 0x3F800000 denotes the number one. -/
theorem oneW_eq : oneW = 1 := by
  show Ideal.ofBits .f32 0x3F800000#32 = 1
  simp [Ideal.ofBits, Ideal.ieee, -EReal.coe_mul]; norm_num

/-- The word 0 denotes zero. -/
theorem zeroW_eq : zeroW = 0 := by
  show Ideal.ofBits .f32 0x00000000#32 = 0
  simp [Ideal.ofBits, Ideal.ieee]

/-- One is a real number. -/
theorem oneW_real : IsRealS oneW := by rw [oneW_eq]; exact isRealS_one

/-! ## Index words -/

/-- A number below 50000, written as a 32-bit word and read back signed, is itself. -/
theorem toInt_ofNat_small (j : Nat) (hj : j < 50000) : (BitVec.ofNat 32 j).toInt = (j : Int) := by
  rw [BitVec.toInt_eq_toNat_cond, BitVec.toNat_ofNat]
  have hm : j % 2 ^ 32 = j := Nat.mod_eq_of_lt (by omega)
  rw [hm]
  split <;> omega

/-- A word that reads signed as the number of node r names node r: it is not negative, so it does not count
    from the end, and it is below 50000, so the clamp leaves it. -/
theorem node_of_toInt {v : BitVec 32} {r : Fin 50000} (h : v.toInt = (r.val : Int)) : node v = r := by
  have hnn : ¬ IntOp.cmpi .slt v 0#32 = 1#1 := by
    rw [IntOp.cmpi_slt]
    have h0 : (0#32 : BitVec 32).toInt = 0 := by decide
    rw [h0, h]; omega
  have hw : wrapIdx 50000 v = v := by
    unfold wrapIdx Scalar.select
    exact if_neg hnn
  unfold node clampRow
  rw [hw]
  apply Fin.ext
  show min v.toInt.toNat (50000 - 1) = r.val
  rw [h]
  have := r.isLt
  omega

/-- The word of the number of node r names node r. -/
theorem node_ofNat (r : Fin 50000) : node (BitVec.ofNat 32 r.val) = r :=
  node_of_toInt (toInt_ofNat_small r.val r.isLt)

/-! ## The longer edge list: given edges, then loop edges -/

/-- A given edge's place in the longer list. -/
def inl (e : Fin 800000) : Fin 850000 := ⟨e.val, by omega⟩

/-- A loop edge's place in the longer list. -/
def inr (j : Fin 50000) : Fin 850000 := ⟨800000 + j.val, by omega⟩

/-- A sum over the longer list is the sum over the given edges plus the sum over the loop edges. -/
theorem sum_split (f : Fin 850000 → EReal) :
    ∑ e : Fin 850000, f e = (∑ e : Fin 800000, f (inl e)) + ∑ j : Fin 50000, f (inr j) :=
  Fin.sum_univ_add (a := 800000) (b := 50000) f

/-- At a given edge's place the longer list reads the given word. -/
theorem withLoops_inl (w : Fin 800000 → BitVec 32) (e : Fin 800000) : withLoops w (inl e) = w e := by
  unfold withLoops
  exact dif_pos e.isLt

/-- At the place of the loop edge of node j the longer list reads the word j. -/
theorem withLoops_inr (w : Fin 800000 → BitVec 32) (j : Fin 50000) :
    withLoops w (inr j) = BitVec.ofNat 32 j.val := by
  unfold withLoops
  have hn : ¬ (inr j).val < 800000 := by
    show ¬ (800000 + j.val < 800000)
    omega
  rw [dif_neg hn]
  show BitVec.ofNat 32 (800000 + j.val - 800000) = BitVec.ofNat 32 j.val
  rw [Nat.add_sub_cancel_left]

/-- Among the loop words exactly the word r ends at node r: a sum over the loop edges that end at r has the
    one term of the loop edge of r. -/
theorem sum_loops (r : Fin 50000) (F : Fin 50000 → EReal) :
    ∑ j : Fin 50000, (if (BitVec.ofNat 32 j.val).toInt = (r.val : Int) then F j else 0) = F r := by
  have hcond : ∀ j : Fin 50000, ((BitVec.ofNat 32 j.val).toInt = (r.val : Int)) ↔ j = r := by
    intro j
    rw [toInt_ofNat_small j.val j.isLt]
    constructor
    · intro h
      exact Fin.ext (by exact_mod_cast h)
    · rintro rfl
      rfl
  simp only [hcond]
  rw [Finset.sum_ite_eq' Finset.univ r F, if_pos (Finset.mem_univ r)]

/-! ## The degree and its factor -/

/-- The degree over the longer list is the degree over the given edges plus one. -/
theorem indeg_withLoops (d : Fin 800000 → BitVec 32) (i : Fin 50000) :
    indeg (withLoops d) i = indeg d i + oneW := by
  unfold indeg
  rw [sum_split]
  simp only [withLoops_inl, withLoops_inr]
  rw [show (∑ j : Fin 50000, (if (BitVec.ofNat 32 j.val).toInt = (i.val : Int) then oneW else 0)) = oneW from
    sum_loops i (fun _ => oneW)]

/-- The two families of degree factors are the same. -/
theorem dvR_eq_dvK (ei : Fin 2 → Fin 800000 → BitVec 32) : dvR ei = dvK ei := by
  funext i
  unfold dvR dvK
  rw [indeg_withLoops]

/-- A degree is a real number. -/
theorem indeg_real {M : Nat} (d : Fin M → BitVec 32) (i : Fin 50000) : IsRealS (indeg d i) := by
  unfold indeg
  refine isRealS_sum _ _ fun e _ => ?_
  split_ifs
  · exact oneW_real
  · exact isRealS_zero

/-- A degree is not negative. -/
theorem indeg_nonneg {M : Nat} (d : Fin M → BitVec 32) (i : Fin 50000) : 0 ≤ indeg d i := by
  unfold indeg
  refine Finset.sum_nonneg fun e _ => ?_
  split_ifs
  · rw [oneW_eq]; exact zero_le_one
  · exact le_rfl

/-- The guarded argument of the inverse square root is a real number that is at least one. -/
theorem guard_real_pos {x : EReal} (hx : IsRealS x) : IsRealS (max x oneW) ∧ 0 < max x oneW := by
  rw [oneW_eq]
  exact ⟨hx.max isRealS_one, lt_of_lt_of_le zero_lt_one (le_max_right _ _)⟩

/-- The factor of a real degree is a real number. -/
theorem rsq_real {x : EReal} (hx : IsRealS x) : IsRealS (rsq x) := by
  unfold rsq
  exact (guard_real_pos hx).1.rsqrt (guard_real_pos hx).2

/-- The factor of a real degree is positive. -/
theorem rsq_pos {x : EReal} (hx : IsRealS x) : 0 < rsq x := by
  unfold rsq
  exact Cert.Reals.rsqrt_pos (guard_real_pos hx).1 (guard_real_pos hx).2

/-- Every degree factor is a real number. -/
theorem dvK_real (ei : Fin 2 → Fin 800000 → BitVec 32) (i : Fin 50000) : IsRealS (dvK ei i) := by
  unfold dvK
  exact rsq_real ((indeg_real _ i).add oneW_real)

/-- Every degree factor is positive. -/
theorem dvK_pos (ei : Fin 2 → Fin 800000 → BitVec 32) (i : Fin 50000) : 0 < dvK ei i := by
  unfold dvK
  exact rsq_pos ((indeg_real _ i).add oneW_real)

/-! ## A real factor comes out of a finite sum of reals -/

/-- For real numbers a e and a real d, the sum of the terms a e · d over the indices that satisfy p is d times
    the sum of the a e over those indices. -/
theorem sum_ite_mul_real {ι : Type*} [Fintype ι] (p : ι → Prop) [DecidablePred p] (a : ι → EReal) (d : EReal)
    (ha : ∀ e, IsRealS (a e)) (hd : IsRealS d) :
    ∑ e, (if p e then a e * d else 0) = d * ∑ e, (if p e then a e else 0) := by
  obtain ⟨dr, rfl⟩ := hd
  choose ar har using ha
  have h1 : ∀ e, (if p e then a e * (dr : EReal) else 0) = (((if p e then ar e * dr else 0 : ℝ)) : EReal) := by
    intro e
    by_cases hp : p e
    · rw [if_pos hp, if_pos hp, har e, EReal.coe_mul]
    · rw [if_neg hp, if_neg hp, EReal.coe_zero]
  have h2 : ∀ e, (if p e then a e else 0) = (((if p e then ar e else 0 : ℝ)) : EReal) := by
    intro e
    by_cases hp : p e
    · rw [if_pos hp, if_pos hp, har e]
    · rw [if_neg hp, if_neg hp, EReal.coe_zero]
  rw [Finset.sum_congr rfl fun e _ => h1 e, Finset.sum_congr rfl fun e _ => h2 e, ← coe_fintype_sum,
    ← coe_fintype_sum, ← EReal.coe_mul, Finset.mul_sum]
  refine congrArg (fun t : ℝ => (t : EReal)) (Finset.sum_congr rfl fun e _ => ?_)
  by_cases hp : p e
  · rw [if_pos hp, if_pos hp, mul_comm]
  · rw [if_neg hp, if_neg hp, mul_zero]

/-! ## Real data stays real -/

/-- Real features times real weights are real. -/
theorem mm_real {K : Nat} {a : Fin 50000 → Fin K → EReal} {w : Fin K → Fin 128 → EReal}
    (ha : ∀ r k, IsRealS (a r k)) (hw : ∀ k c, IsRealS (w k c)) (r : Fin 50000) (c : Fin 128) :
    IsRealS (mm a w r c) := by
  unfold mm
  exact isRealS_sum _ _ fun k _ => (ha r k).mul (hw k c)

/-- An edge sum of real messages is real. -/
theorem edgeSum_real {M : Nat} (d : Fin M → BitVec 32) {msg : Fin M → Fin 128 → EReal}
    (hm : ∀ e c, IsRealS (msg e c)) (r : Fin 50000) (c : Fin 128) : IsRealS (edgeSum d msg r c) := by
  unfold edgeSum
  refine isRealS_sum _ _ fun e _ => ?_
  split_ifs
  · exact hm e c
  · exact isRealS_zero

/-- A layer (loop edges taken out) of real factors, real features and a real bias is real. -/
theorem layerK_real {s d : Fin 800000 → BitVec 32} {dv : Fin 50000 → EReal} {h : Fin 50000 → Fin 128 → EReal}
    {b : Fin 128 → EReal} (hdv : ∀ i, IsRealS (dv i)) (hh : ∀ n c, IsRealS (h n c)) (hb : ∀ c, IsRealS (b c))
    (r : Fin 50000) (c : Fin 128) : IsRealS (layerK s d dv h b r c) := by
  unfold layerK
  exact (((hdv r).mul (edgeSum_real d (fun e c => (hh _ c).mul (hdv _)) r c)).add
    (((hdv r).mul (hdv r)).mul (hh r c))).add (hb c)

/-- The clamp at zero of a real is real. -/
theorem relu_real {x : EReal} (hx : IsRealS x) : IsRealS (relu x) := by
  unfold relu
  rw [zeroW_eq]
  exact hx.max isRealS_zero

/-! ## The layer law -/

/-- THE LAYER LAW: for real factors and real features, the layer over the longer edge list is the layer with the
    loop edges taken out of the sum. The bias is arbitrary. -/
theorem layer_eq (s d : Fin 800000 → BitVec 32) (dv : Fin 50000 → EReal) (h : Fin 50000 → Fin 128 → EReal)
    (b : Fin 128 → EReal) (hdv : ∀ i, IsRealS (dv i)) (hh : ∀ n c, IsRealS (h n c)) :
    layerR (withLoops s) (withLoops d) dv h b = layerK s d dv h b := by
  funext r c
  unfold layerR layerK edgeSum
  rw [sum_split]
  simp only [withLoops_inl, withLoops_inr]
  have h1 : (∑ e : Fin 800000, (if (d e).toInt = (r.val : Int)
        then h (node (s e)) c * (dv (node (s e)) * dv (node (d e))) else 0))
      = dv r * ∑ e : Fin 800000, (if (d e).toInt = (r.val : Int) then h (node (s e)) c * dv (node (s e)) else 0) := by
    refine Eq.trans (Finset.sum_congr rfl fun e _ => ?_)
      (sum_ite_mul_real (fun e : Fin 800000 => (d e).toInt = (r.val : Int))
        (fun e => h (node (s e)) c * dv (node (s e))) (dv r) (fun e => (hh _ c).mul (hdv _)) (hdv r))
    by_cases hc : (d e).toInt = (r.val : Int)
    · simp only [if_pos hc]
      rw [node_of_toInt hc, mul_assoc]
    · simp only [if_neg hc]
  have h2 : (∑ j : Fin 50000, (if (BitVec.ofNat 32 j.val).toInt = (r.val : Int)
        then h (node (BitVec.ofNat 32 j.val)) c
          * (dv (node (BitVec.ofNat 32 j.val)) * dv (node (BitVec.ofNat 32 j.val))) else 0))
      = (dv r * dv r) * h r c := by
    refine Eq.trans (sum_loops r (fun j => h (node (BitVec.ofNat 32 j.val)) c
      * (dv (node (BitVec.ofNat 32 j.val)) * dv (node (BitVec.ofNat 32 j.val))))) ?_
    show h (node (BitVec.ofNat 32 r.val)) c
      * (dv (node (BitVec.ofNat 32 r.val)) * dv (node (BitVec.ofNat 32 r.val))) = (dv r * dv r) * h r c
    rw [node_ofNat, mul_comm]
  rw [h1, h2]

/-! ## The two networks -/

/-- THE TWO ARRANGEMENTS AGREE on real features, weights and first bias. -/
theorem out_eq (x : Fin 50000 → Fin 256 → EReal) (ei : Fin 2 → Fin 800000 → BitVec 32)
    (w1 : Fin 256 → Fin 128 → EReal) (b1 : Fin 128 → EReal) (w2 : Fin 128 → Fin 128 → EReal) (b2 : Fin 128 → EReal)
    (hx : ∀ r k, Cert.Reals.IsRealS (x r k)) (hw1 : ∀ k c, Cert.Reals.IsRealS (w1 k c))
    (hb1 : ∀ c, Cert.Reals.IsRealS (b1 c)) (hw2 : ∀ k c, Cert.Reals.IsRealS (w2 k c)) :
    Cert.Gcn.outK x ei w1 b1 w2 b2 = Cert.Gcn.outR x ei w1 b1 w2 b2 := by
  have hdv : ∀ i, IsRealS (dvK ei i) := dvK_real ei
  have hh1 : ∀ n c, IsRealS (mm x w1 n c) := mm_real hx hw1
  have hinner : layerR (withLoops (ei 0)) (withLoops (ei 1)) (dvK ei) (mm x w1) b1
      = layerK (ei 0) (ei 1) (dvK ei) (mm x w1) b1 := layer_eq _ _ _ _ _ hdv hh1
  have hL1 : ∀ r k, IsRealS (layerK (ei 0) (ei 1) (dvK ei) (mm x w1) b1 r k) := layerK_real hdv hh1 hb1
  have hh2 : ∀ n c, IsRealS (mm (fun r k => relu (layerK (ei 0) (ei 1) (dvK ei) (mm x w1) b1 r k)) w2 n c) :=
    mm_real (fun r k => relu_real (hL1 r k)) hw2
  unfold outK outR
  rw [dvR_eq_dvK, hinner, layer_eq _ _ _ _ _ hdv hh2]

end Cert.Gcn.Algebra

end
-- ==== Proof.LibColumns.lean ====
/-
  A row statistic kept as a column. A reduction over the lanes of an [a, b] array leaves one value per row, an [a]
  vector; "keepdims" reshapes it to the column [a, 1], and the column is then broadcast back over the lanes to [a, b].
  Read at an index, the column at (i, 0) is the vector at i, and the broadcast at (p, c) is the column at (p, 0):
  every lane of row p sees row p's statistic. Also the lane reductions themselves at the ideal values, read at a row:
  a lane sum is the sum over the row, a lane maximum the maximum over the row taken from the accumulator's value.
  General facts, for any extents.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx
open scoped BigOperators

variable {α : Type}

/-- An [a] vector cast to the column [a, 1] reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b lanes reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a lane sum of an [a, b] array, read at row p, is the sum over the row. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

/-- At the ideal values a lane maximum of an [a, b] array, read at row p, is the maximum over the row taken from
    the accumulator's value. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f) (funext fun k => congrArg v (funext fun ax => Fin.ext (by
      match ax with
      | ⟨0, _⟩ => rfl
      | ⟨1, _⟩ => rfl))))

end Cert.Columns

end
-- ==== Proof.KHost.lean ====
/-
  The host operations of the idealized kernel, read.

  Between the three regions the host computes, from the edge list (end, edge): the source and target words of the
  edges (two rows of the list, flattened); the factor column — the number of edges into each node, plus one, guarded
  from below by one, inverse square root, made a column [50000, 1] —; and, before the second and third regions, an
  edge sum: the rows of a [50000, 128] array gathered at the source nodes (a negative word counts from the end, the
  gather clamps) and added up at the target words (a word that names no node is dropped).  Read at an index these
  are the specification's `dvK` and `edgeSum`.  The buffer contents at each segment boundary are a fold through
  the program; a buffer that a stretch or a region does not write keeps what it held, so the words and the factor
  column computed before the first region are what the later stretches and regions read.
-/
import proofs.«138598_j40003325395140_2_alg».proof.Proof.Gen.KernelIdeal.Frame
import Idealize.ShloMosaic.Lib.StableHlo.Run
import Idealize.ShloMosaic.Lib.Pipeline.Value
import proofs.«138598_j40003325395140_2_alg».proof.Proof.LibGraphOps
import proofs.«138598_j40003325395140_2_alg».proof.Proof.LibColumns
import proofs.«138598_j40003325395140_2_alg».proof.Proof.Spec

set_option maxRecDepth 16384

noncomputable section

namespace Cert.Gcn.KHost

open Idealize.ShloMosaic Idealize.ShloMosaic.TcCoe Idealize.ShloMosaic.ValueIdx Idealize.SL.Sem Idealize.ShloMosaic.StableHlo
open Idealize.ShloMosaic.RowGather Cert.Lib.GraphOps Cert.Lib.ScatterAdd
open Cert.KernelIdeal Cert.KernelIdeal.Gen Cert.Gcn
open scoped BigOperators

variable (m : (ℓ : Loc nD τ sig) → Buf (Elt Ideal) ℓ) (ρ : Dev nD → PrngReg)

/-- The edge list as launched, as a function of (end, edge). -/
def eiF (c : Dev nD) : Fin 2 → Fin 800000 → BitVec 32 := fun o e =>
  (m ((c.tc : Thread nD τ).loc main_arg1) : S2x800000.Idx → BitVec 32) (ix2 o e)

/-- The source words: row 0 of the edge list, sliced out and flattened. -/
abbrev srcT (c : Dev nD) : IVec S800000 32 :=
  shapeCast S800000 (extractStridedSlice S1x800000 ![0, 0] (m ((c.tc : Thread nD τ).loc main_arg1)) slices_S2x800000_S1x800000_0_0) shapeCasts_S1x800000_S800000

/-- The target words: row 1 of the edge list. -/
abbrev dstT (c : Dev nD) : IVec S800000 32 :=
  shapeCast S800000 (extractStridedSlice S1x800000 ![1, 0] (m ((c.tc : Thread nD τ).loc main_arg1)) slices_S2x800000_S1x800000_1_0) shapeCasts_S1x800000_S800000

/-- The factor column as the host computes it: count the edges into each node, add one, guard by one, inverse
    square root, made a column. -/
def dinvT (c : Dev nD) : FVec Ideal S50000x1 .f32 :=
  shapeCast S50000x1 (Host.rsqrt (maximumf (addf (Host.scatterAdd scatter_S50000_S800000x1_S800000_n_0_0_1
      (broadcastInDim S50000 ![] bcast_S_S50000 (constant (F := Ideal) S_ .f32 0x00000000#32))
      (broadcastInDim S800000x1 ![0] bcast_S800000_S800000x1_0 (dstT m c))
      (broadcastInDim S800000 ![] bcast_S_S800000 (constant (F := Ideal) S_ .f32 0x3F800000#32)))
      (broadcastInDim S50000 ![] bcast_S_S50000 (constant (F := Ideal) S_ .f32 0x3F800000#32)))
      (broadcastInDim S50000 ![] bcast_S_S50000 (constant (F := Ideal) S_ .f32 0x3F800000#32)))) shapeCasts_S50000_S50000x1

theorem W1_v1 (c : Dev nD) : (W1 m ρ c (Proc.devRef .tc main_v1) : S800000.Idx → BitVec 32) = srcT m c := by
  show StableHlo.after hostOps0 (W0 m ρ c) (Proc.devRef .tc main_v1) = _
  after_results
  rfl

theorem W1_v3 (c : Dev nD) : (W1 m ρ c (Proc.devRef .tc main_v3) : S800000.Idx → BitVec 32) = dstT m c := by
  show StableHlo.after hostOps0 (W0 m ρ c) (Proc.devRef .tc main_v3) = _
  after_results
  rfl

theorem W1_v13 (c : Dev nD) : (W1 m ρ c (Proc.devRef .tc main_v13) : S50000x1.Idx → EReal) = dinvT m c := by
  show StableHlo.after hostOps0 (W0 m ρ c) (Proc.devRef .tc main_v13) = _
  after_results
  rfl

theorem src_read (c : Dev nD) (e : Fin 800000) : srcT m c (ix1 e) = eiF m c 0 e :=
  edge_row_apply 0 (by decide) _ slices_S2x800000_S1x800000_0_0 shapeCasts_S1x800000_S800000 e

theorem dst_read (c : Dev nD) (e : Fin 800000) : dstT m c (ix1 e) = eiF m c 1 e :=
  edge_row_apply 1 (by decide) _ slices_S2x800000_S1x800000_1_0 shapeCasts_S1x800000_S800000 e

theorem scatterV_eq : scatter_S50000_S800000x1_S800000_n_0_0_1 = vecDims 50000 800000 Cert.KernelIdeal.Gen.scatter_S50000_S800000x1_S800000_n_0_0_1_wf := rfl

/-- The factor column at node i is the spec's factor. -/
theorem hostRsqrt_apply {s : Shape} (x : FVec Ideal s .f32) (i : s.Idx) : (Host.rsqrt x i : EReal) = Ideal.rsqrt (x i) := rfl

theorem dinv_read (c : Dev nD) (i : Fin 50000) : (dinvT m c (ix2 i (0 : Fin 1)) : EReal) = dvK (eiF m c) i := by
  unfold dinvT
  rw [Cert.Columns.shapeCast_a_a1_apply _ shapeCasts_S50000_S50000x1 i 0, hostRsqrt_apply, maximumf_apply, addf_apply,
    scatterV_eq, count_apply, Cert.Lib.RowBroadcast.broadcastInDim_scalar_apply _ bcast_S_S50000 (ix1 i) ix0]
  simp only [dst_read]
  rw [Ideal.ofBits_zero_f32, zero_add]
  rfl

/-! ## The edge sum -/

/-- The edge sum as the host computes it from a [50000, 128] array: its rows gathered at the wrapped source words,
    added into zeros at the target words. -/
def aggT (c : Dev nD) (HS : FVec Ideal S50000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstT m c))
    (Host.gather gather_S50000x128_S800000x1_S800000x128_1_0_n_n_0_1_1128 HS
      (broadcastInDim S800000x1 ![0] bcast_S800000_S800000x1_0
        (select (cmpi .slt (srcT m c) (broadcastInDim S800000 ![] bcast_S_S800000 (constantI S_ 32 0#32)))
          (addi (srcT m c) (broadcastInDim S800000 ![] bcast_S_S800000 (constantI S_ 32 50000#32))) (srcT m c))))

theorem scatterR_eq : scatter_S50000x128_S800000x1_S800000x128_1_0_0_1
    = Cert.Lib.ScatterAdd.rowDims 50000 800000 128 Cert.KernelIdeal.Gen.scatter_S50000x128_S800000x1_S800000x128_1_0_0_1_wf := rfl

theorem gatherR_eq : gather_S50000x128_S800000x1_S800000x128_1_0_n_n_0_1_1128
    = Idealize.ShloMosaic.RowGather.rowDims 50000 800000 128 Cert.KernelIdeal.Gen.gather_S50000x128_S800000x1_S800000x128_1_0_n_n_0_1_1128_wf := rfl

/-- The host's edge sum at (r, q) is the specification's: over the edges ending at r, lane q of the source node's row. -/
theorem agg_read (c : Dev nD) (HS : FVec Ideal S50000x128 .f32) (r : Fin 50000) (q : Fin 128) :
    (aggT m c HS (ix2 r q) : EReal)
      = edgeSum (eiF m c 1) (fun e q => (HS (ix2 (node (eiF m c 0 e)) q) : EReal)) r q := by
  unfold aggT
  rw [scatterR_eq, aggregate_apply, Ideal.ofBits_zero_f32, zero_add]
  unfold edgeSum
  refine Finset.sum_congr rfl fun e _ => ?_
  rw [dst_read, gatherR_eq, gather_rows_apply (by decide : 0 < 50000), wrapped_col_apply 50000, src_read]
  rfl

/-! ## What each boundary holds -/

/-- A launched argument is still there when the first region is entered. -/
theorem W1_arg0 (c : Dev nD) : W1 m ρ c (Proc.devRef .tc main_arg0) = m ((c.tc : Thread nD τ).loc main_arg0) := by
  show StableHlo.after hostOps0 (W0 m ρ c) (Proc.devRef .tc main_arg0) = _
  after_results
theorem W1_arg2 (c : Dev nD) : W1 m ρ c (Proc.devRef .tc main_arg2) = m ((c.tc : Thread nD τ).loc main_arg2) := by
  show StableHlo.after hostOps0 (W0 m ρ c) (Proc.devRef .tc main_arg2) = _
  after_results
theorem W1_arg3 (c : Dev nD) : W1 m ρ c (Proc.devRef .tc main_arg3) = m ((c.tc : Thread nD τ).loc main_arg3) := by
  show StableHlo.after hostOps0 (W0 m ρ c) (Proc.devRef .tc main_arg3) = _
  after_results
theorem W1_arg4 (c : Dev nD) : W1 m ρ c (Proc.devRef .tc main_arg4) = m ((c.tc : Thread nD τ).loc main_arg4) := by
  show StableHlo.after hostOps0 (W0 m ρ c) (Proc.devRef .tc main_arg4) = _
  after_results
theorem W1_arg5 (c : Dev nD) : W1 m ρ c (Proc.devRef .tc main_arg5) = m ((c.tc : Thread nD τ).loc main_arg5) := by
  show StableHlo.after hostOps0 (W0 m ρ c) (Proc.devRef .tc main_arg5) = _
  after_results

/-- The factor column is an operand of the first region, which leaves its operands as it found them. -/
theorem W2_v13 (c : Dev nD) : W2 m ρ c (Proc.devRef .tc main_v13) = W1 m ρ c (Proc.devRef .tc main_v13) :=
  (W2_arr m ρ c 2).trans (((dat0 (V1 m ρ) c).arrAt_in 2 rfl _).trans (A_eq0 (V1 m ρ) c 2))

/-- Entering the second region: the edge sum of the first region's scaled rows. -/
theorem W3_v24 (c : Dev nD) : (W3 m ρ c (Proc.devRef .tc main_v24) : S50000x128.Idx → EReal)
    = aggT m c (W2 m ρ c (Proc.devRef .tc main_v14_1)) := by
  show StableHlo.after hostOps1 (W2 m ρ c) (Proc.devRef .tc main_v24) = _
  after_results
  rw [W2_of_ne m ρ c main_v1 (by decide), W2_of_ne m ρ c main_v3 (by decide), W1_v1, W1_v3]
  rfl

theorem W3_v13 (c : Dev nD) : (W3 m ρ c (Proc.devRef .tc main_v13) : S50000x1.Idx → EReal) = dinvT m c := by
  show StableHlo.after hostOps1 (W2 m ρ c) (Proc.devRef .tc main_v13) = _
  after_results
  rw [W2_v13, W1_v13]

theorem W3_v14_0 (c : Dev nD) : W3 m ρ c (Proc.devRef .tc main_v14_0) = W2 m ρ c (Proc.devRef .tc main_v14_0) := by
  show StableHlo.after hostOps1 (W2 m ρ c) (Proc.devRef .tc main_v14_0) = _
  after_results

theorem W3_v25 (c : Dev nD) : (W3 m ρ c (Proc.devRef .tc main_v25) : S1x128.Idx → EReal)
    = shapeCast S1x128 (m ((c.tc : Thread nD τ).loc main_arg3)) shapeCasts_S128_S1x128 := by
  show StableHlo.after hostOps1 (W2 m ρ c) (Proc.devRef .tc main_v25) = _
  after_results
  rw [W2_of_ne m ρ c main_arg3 (by decide), W1_arg3]
  rfl

theorem W3_arg4 (c : Dev nD) : W3 m ρ c (Proc.devRef .tc main_arg4) = m ((c.tc : Thread nD τ).loc main_arg4) := by
  show StableHlo.after hostOps1 (W2 m ρ c) (Proc.devRef .tc main_arg4) = _
  after_results
  rw [W2_of_ne m ρ c main_arg4 (by decide), W1_arg4]

theorem W3_v1 (c : Dev nD) : (W3 m ρ c (Proc.devRef .tc main_v1) : S800000.Idx → BitVec 32) = srcT m c := by
  show StableHlo.after hostOps1 (W2 m ρ c) (Proc.devRef .tc main_v1) = _
  after_results
  rw [W2_of_ne m ρ c main_v1 (by decide), W1_v1]

theorem W3_v3 (c : Dev nD) : (W3 m ρ c (Proc.devRef .tc main_v3) : S800000.Idx → BitVec 32) = dstT m c := by
  show StableHlo.after hostOps1 (W2 m ρ c) (Proc.devRef .tc main_v3) = _
  after_results
  rw [W2_of_ne m ρ c main_v3 (by decide), W1_v3]

theorem W3_arg5 (c : Dev nD) : W3 m ρ c (Proc.devRef .tc main_arg5) = m ((c.tc : Thread nD τ).loc main_arg5) := by
  show StableHlo.after hostOps1 (W2 m ρ c) (Proc.devRef .tc main_arg5) = _
  after_results
  rw [W2_of_ne m ρ c main_arg5 (by decide), W1_arg5]

/-- The factor column is an operand of the second region too. -/
theorem W4_v13 (c : Dev nD) : W4 m ρ c (Proc.devRef .tc main_v13) = W3 m ρ c (Proc.devRef .tc main_v13) :=
  (W4_arr m ρ c 1).trans (((dat1 (V3 m ρ) c).arrAt_in 1 rfl _).trans (A_eq1 (V3 m ρ) c 1))

/-- Entering the third region: the edge sum of the second region's scaled rows. -/
theorem W5_v36 (c : Dev nD) : (W5 m ρ c (Proc.devRef .tc main_v36) : S50000x128.Idx → EReal)
    = aggT m c (W4 m ρ c (Proc.devRef .tc main_v26_1)) := by
  show StableHlo.after hostOps2 (W4 m ρ c) (Proc.devRef .tc main_v36) = _
  after_results
  rw [W4_of_ne m ρ c main_v1 (by decide), W4_of_ne m ρ c main_v3 (by decide), W3_v1, W3_v3]
  rfl

theorem W5_v13 (c : Dev nD) : (W5 m ρ c (Proc.devRef .tc main_v13) : S50000x1.Idx → EReal) = dinvT m c := by
  show StableHlo.after hostOps2 (W4 m ρ c) (Proc.devRef .tc main_v13) = _
  after_results
  rw [W4_v13, W3_v13]

theorem W5_v26_0 (c : Dev nD) : W5 m ρ c (Proc.devRef .tc main_v26_0) = W4 m ρ c (Proc.devRef .tc main_v26_0) := by
  show StableHlo.after hostOps2 (W4 m ρ c) (Proc.devRef .tc main_v26_0) = _
  after_results

theorem W5_v37 (c : Dev nD) : (W5 m ρ c (Proc.devRef .tc main_v37) : S1x128.Idx → EReal)
    = shapeCast S1x128 (m ((c.tc : Thread nD τ).loc main_arg5)) shapeCasts_S128_S1x128 := by
  show StableHlo.after hostOps2 (W4 m ρ c) (Proc.devRef .tc main_v37) = _
  after_results
  rw [W4_of_ne m ρ c main_arg5 (by decide), W3_arg5]
  rfl

end Cert.Gcn.KHost

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.KBody.lean ====
/-
  What each kernel body computes on one block of 2000 rows, read at a block-local index (p, q).

  First body: the block of features times the whole weight matrix, h (p, q) = ∑ k, x (p, k) · w (k, q), and the same
  scaled by the row's factor, h (p, q) · d (p, 0).
  Second body: o (p, k) = max ((d p · e (p, k) + (d p · d p) · h (p, k)) + b k) 0 — the receiving node's factor times the
  edge sum, the node's own row with the squared factor, the bias, a clamp at zero —, then o times the second weight
  matrix, and that product scaled by d p again.
  Third body: (d p · e (p, q) + (d p · d p) · h (p, q)) + b q.
  A change of float format is the identity on the extended reals, a cast of a shape to itself is the identity, and a
  column [2000, 1] (a row [1, 128]) spread over the block reads the column at the row (the row at the lane).
-/
import proofs.«138598_j40003325395140_2_alg».proof.Proof.Gen.KernelIdeal.Skeleton
import Idealize.ShloMosaic.Lib.ValueIdx
import Idealize.ShloMosaic.Lib.Pipeline.Value
import Idealize.ShloMosaic.PureOps.Ideal.Laws
import proofs.«138598_j40003325395140_2_alg».proof.Proof.LibColumns
import proofs.«138598_j40003325395140_2_alg».proof.Proof.LibRows
import proofs.«138598_j40003325395140_2_alg».proof.Proof.LibPlainDot
import proofs.«138598_j40003325395140_2_alg».proof.Proof.Spec

noncomputable section

namespace Cert.Gcn.KBody

open Idealize.ShloMosaic Idealize.ShloMosaic.ValueIdx Cert.KernelIdeal Cert.KernelIdeal.Gen Cert.Gcn
open scoped BigOperators

/-- The first body's matrix product has the plain dimension numbers of a [2000, 256] by [256, 128] product. -/
theorem dot0_eq : dot_S2000x256_S256x128_S2000x128_1_0_0_1_n_n = DotDims.plain 2000 256 128 := rfl

/-- The second body's matrix product has the plain dimension numbers of a [2000, 128] by [128, 128] product. -/
theorem dot1_eq : dot_S2000x128_S128x128_S2000x128_1_0_0_1_n_n = DotDims.plain 2000 128 128 := rfl

/-- The block of features times the weights, at (p, q): the sum over the 256 input lanes. -/
theorem pay0_1 (v0 : Vec Ideal S2000x256 .f32) (v2 : Vec Ideal S256x128 .f32) (p : Fin 2000) (q : Fin 128) :
    (k0_pay1 (F := Ideal) v0 v2 (ix2 p q) : EReal) = ∑ k : Fin 256, (v0 (ix2 p k) : EReal) * v2 (ix2 k q) := by
  unfold k0_pay1
  rw [dot0_eq]
  refine (Cert.Lib.PlainDot.matmul_plain_zero_apply none _ _ p q).trans ?_
  rfl

/-- The same product scaled by the row's factor. -/
theorem pay0_2 (v0 : Vec Ideal S2000x256 .f32) (v2 : Vec Ideal S256x128 .f32) (v6 : Vec Ideal S2000x1 .f32)
    (p : Fin 2000) (q : Fin 128) :
    (k0_pay2 (F := Ideal) v0 v2 v6 (ix2 p q) : EReal)
      = (∑ k : Fin 256, (v0 (ix2 p k) : EReal) * v2 (ix2 k q)) * v6 (ix2 p (0 : Fin 1)) := by
  unfold k0_pay2
  rw [mulf_apply, pay0_1]
  simp only [shapeCast_self]
  rw [Cert.Columns.broadcastTo_a1_ab_apply _ _ p q 0]

/-- The factor column spread over the lanes, at (p, q): the factor of row p. -/
theorem pay1_1 (v0 : Vec Ideal S2000x1 .f32) (p : Fin 2000) (q : Fin 128) :
    (k1_pay1 (F := Ideal) v0 (ix2 p q) : EReal) = v0 (ix2 p (0 : Fin 1)) := by
  unfold k1_pay1
  simp only [shapeCast_self]
  rw [Cert.Columns.broadcastTo_a1_ab_apply _ _ p q 0]

/-- One entry of the first layer's clamped output on the block. -/
def act (v0 : Vec Ideal S2000x1 .f32) (v4 : Vec Ideal S1x128 .f32) (v8 v12 : Vec Ideal S2000x128 .f32)
    (p : Fin 2000) (k : Fin 128) : EReal :=
  max (((v0 (ix2 p (0 : Fin 1)) : EReal) * v8 (ix2 p k)
      + ((v0 (ix2 p (0 : Fin 1)) : EReal) * v0 (ix2 p (0 : Fin 1))) * v12 (ix2 p k)) + v4 (ix2 (0 : Fin 1) k)) zeroW

/-- The second body's product at (p, q): the clamped first-layer rows times the second weight matrix. -/
theorem pay1_2 (v0 : Vec Ideal S2000x1 .f32) (v4 : Vec Ideal S1x128 .f32) (v8 v12 : Vec Ideal S2000x128 .f32)
    (v20 : Vec Ideal S128x128 .f32) (p : Fin 2000) (q : Fin 128) :
    (k1_pay2 (F := Ideal) v0 v4 v8 v12 v20 (ix2 p q) : EReal)
      = ∑ k : Fin 128, act v0 v4 v8 v12 p k * v20 (ix2 k q) := by
  unfold k1_pay2
  rw [dot1_eq]
  refine (Cert.Lib.PlainDot.matmul_plain_zero_apply none _ _ p q).trans ?_
  refine Finset.sum_congr rfl fun k _ => ?_
  simp only [truncf_apply, maximumf_apply, addf_apply, mulf_apply, broadcast_apply, shapeCast_self, pay1_1]
  rw [Cert.Lib.Rows.broadcastTo_row_apply _ _ p k]
  rfl

/-- The same product scaled by the row's factor. -/
theorem pay1_3 (v0 : Vec Ideal S2000x1 .f32) (v4 : Vec Ideal S1x128 .f32) (v8 v12 : Vec Ideal S2000x128 .f32)
    (v20 : Vec Ideal S128x128 .f32) (p : Fin 2000) (q : Fin 128) :
    (k1_pay3 (F := Ideal) v0 v4 v8 v12 v20 (ix2 p q) : EReal)
      = (∑ k : Fin 128, act v0 v4 v8 v12 p k * v20 (ix2 k q)) * v0 (ix2 p (0 : Fin 1)) := by
  unfold k1_pay3
  rw [mulf_apply, pay1_2, pay1_1]

/-- The third body at (p, q). -/
theorem pay2_1 (v0 : Vec Ideal S2000x1 .f32) (v4 : Vec Ideal S1x128 .f32) (v8 v12 : Vec Ideal S2000x128 .f32)
    (p : Fin 2000) (q : Fin 128) :
    (k2_pay1 (F := Ideal) v0 v4 v8 v12 (ix2 p q) : EReal)
      = ((v0 (ix2 p (0 : Fin 1)) : EReal) * v8 (ix2 p q)
          + ((v0 (ix2 p (0 : Fin 1)) : EReal) * v0 (ix2 p (0 : Fin 1))) * v12 (ix2 p q)) + v4 (ix2 (0 : Fin 1) q) := by
  unfold k2_pay1
  simp only [addf_apply, mulf_apply, shapeCast_self]
  rw [Cert.Columns.broadcastTo_a1_ab_apply _ _ p q 0, Cert.Lib.Rows.broadcastTo_row_apply _ _ p q]

end Cert.Gcn.KBody

end
-- ==== Proof.KBlocks.lean ====
/-
  From blocks to whole arrays.  Each of the three regions runs its body on 25 consecutive blocks of 2000 rows; point t
  reads rows 2000 t … 2000 t + 1999 of its row-blocked operands (and the whole of its small operands) and writes the
  same rows of its results.  So what point t writes back is block t of ONE function of the operand arrays as the
  region finds them, the 25 blocks cover the 50000 rows, and each result array after the region is that function.
  Everything here is stated for arbitrary contents V of the buffers at the region's entry.
-/
import proofs.«138598_j40003325395140_2_alg».proof.Proof.Gen.KernelIdeal.Frame
import Idealize.ShloMosaic.Lib.Pipeline.Value
import proofs.«138598_j40003325395140_2_alg».proof.Proof.KBody

set_option maxRecDepth 16384

noncomputable section

namespace Cert.Gcn.KBlocks

open Idealize.ShloMosaic Idealize.ShloMosaic.TcCoe Idealize.ShloMosaic.ValueIdx Idealize.SL.Sem
open Cert.KernelIdeal Cert.KernelIdeal.Gen Cert.Gcn Cert.Gcn.KBody
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- Row p of block t of a row-blocked array. -/
def row (t : Fin 25) (p : Fin 2000) : Fin 50000 := ⟨t.val * 2000 + p.val, by have := t.isLt; have := p.isLt; omega⟩

/-- The block that holds row r, and the row's place in it. -/
theorem row_div_mod (r : Fin 50000) :
    row ⟨r.val / 2000, by have := r.isLt; omega⟩ ⟨r.val % 2000, Nat.mod_lt _ (by decide)⟩ = r :=
  Fin.ext (by show r.val / 2000 * 2000 + r.val % 2000 = r.val; omega)

/-! ## Region 0: features times weights, and the same scaled by the row factors -/

/-- Region 0's index maps over its 25 points: a row-blocked window is at block (t, 0), a small operand at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The arrays region 0 reads, as the region finds them, as plain functions into the extended reals. -/
abbrev A0_0 (c : Dev nD) : S50000x256.Idx → EReal := V c main_arg0
abbrev A0_1 (c : Dev nD) : S256x128.Idx → EReal := V c main_arg2
abbrev A0_2 (c : Dev nD) : S50000x1.Idx → EReal := V c main_v13

/-- Point t's block of operand 0, at local row p: row `row t p` of the array. -/
theorem read0_0 (c : Dev nD) (t : Fin cfg0.N) (p : Fin 2000) (k : Fin 256) :
    (iblk0 V c 0 t (ix2 p k) : EReal) = A0_0 V c (ix2 (row t p) k) := by
  obtain ⟨e0, e1, -, -, -, -, -, -, -, -⟩ := idx0 t
  show A0_0 V c (((cfg0.win 0).blk t).view.emb (ix2 p k)) = _
  refine congrArg _ ?_
  funext a; apply Fin.ext
  match a with
  | ⟨0, _⟩ => show win0_0.index t (0 : Fin 2) * 2000 + 1 * p.val = t.val * 2000 + p.val; omega
  | ⟨1, _⟩ => show win0_0.index t (1 : Fin 2) * 256 + 1 * k.val = k.val; omega

/-- Point t's block of operand 1 is the whole array. -/
theorem read0_1 (c : Dev nD) (t : Fin cfg0.N) (k : Fin 256) (q : Fin 128) :
    (iblk0 V c 1 t (ix2 k q) : EReal) = A0_1 V c (ix2 k q) := by
  obtain ⟨-, -, e0, e1, -, -, -, -, -, -⟩ := idx0 t
  show A0_1 V c (((cfg0.win 1).blk t).view.emb (ix2 k q)) = _
  refine congrArg _ ?_
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- Point t's block of operand 2, at local row p: row `row t p` of the array. -/
theorem read0_2 (c : Dev nD) (t : Fin cfg0.N) (p : Fin 2000) :
    (iblk0 V c 2 t (ix2 p (0 : Fin 1)) : EReal) = A0_2 V c (ix2 (row t p) (0 : Fin 1)) := by
  obtain ⟨-, -, -, -, e0, e1, -, -, -, -⟩ := idx0 t
  show A0_2 V c (((cfg0.win 2).blk t).view.emb (ix2 p (0 : Fin 1))) = _
  refine congrArg _ ?_
  funext a; apply Fin.ext
  match a with
  | ⟨0, _⟩ => show win0_2.index t (0 : Fin 2) * 2000 + 1 * p.val = t.val * 2000 + p.val; omega
  | ⟨1, _⟩ => show win0_2.index t (1 : Fin 2) * 1 + 1 * 0 = 0; omega

/-- Where point t's block of result 3 sits: rows `row t p`. -/
theorem emb0_3 (t : Fin cfg0.N) (p : Fin 2000) (q : Fin 128) :
    ((cfg0.win 3).blk t).view.emb (ix2 p q) = ix2 (row t p) q := by
  obtain ⟨-, -, -, -, -, -, e0, e1, -, -⟩ := idx0 t
  funext a; apply Fin.ext
  match a with
  | ⟨0, _⟩ => show win0_3.index t (0 : Fin 2) * 2000 + 1 * p.val = t.val * 2000 + p.val; omega
  | ⟨1, _⟩ => show win0_3.index t (1 : Fin 2) * 128 + 1 * q.val = q.val; omega

/-- An index is in point t's block of result 3 iff each coordinate is in the block's range. -/
theorem mem_blk0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v14_0).slice (win0_3.rect t)).set ↔ _
  rw [View.set_slice_whole, Rect.mem_set_unit]
  exact Iff.rfl

/-- The 25 blocks cover result 3: row r lies in block r / 2000. -/
theorem covered0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 2000, by show (i 0).val / 2000 < 25; omega⟩, flush0_3 _, ?_⟩
  obtain ⟨-, -, -, -, -, -, e0, e1, -, -⟩ := idx0 ⟨(i 0).val / 2000, by show (i 0).val / 2000 < 25; omega⟩
  rw [mem_blk0_3]
  intro a
  match a with
  | ⟨0, _⟩ => show win0_3.index _ (0 : Fin 2) * 2000 ≤ (i 0).val ∧ (i 0).val < win0_3.index _ (0 : Fin 2) * 2000 + 2000; rw [e0]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e1]; omega

/-- Where point t's block of result 4 sits: rows `row t p`. -/
theorem emb0_4 (t : Fin cfg0.N) (p : Fin 2000) (q : Fin 128) :
    ((cfg0.win 4).blk t).view.emb (ix2 p q) = ix2 (row t p) q := by
  obtain ⟨-, -, -, -, -, -, -, -, e0, e1⟩ := idx0 t
  funext a; apply Fin.ext
  match a with
  | ⟨0, _⟩ => show win0_4.index t (0 : Fin 2) * 2000 + 1 * p.val = t.val * 2000 + p.val; omega
  | ⟨1, _⟩ => show win0_4.index t (1 : Fin 2) * 128 + 1 * q.val = q.val; omega

/-- An index is in point t's block of result 4 iff each coordinate is in the block's range. -/
theorem mem_blk0_4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v14_1).slice (win0_4.rect t)).set ↔ _
  rw [View.set_slice_whole, Rect.mem_set_unit]
  exact Iff.rfl

/-- The 25 blocks cover result 4: row r lies in block r / 2000. -/
theorem covered0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  refine ⟨⟨(i 0).val / 2000, by show (i 0).val / 2000 < 25; omega⟩, flush0_4 _, ?_⟩
  obtain ⟨-, -, -, -, -, -, -, -, e0, e1⟩ := idx0 ⟨(i 0).val / 2000, by show (i 0).val / 2000 < 25; omega⟩
  rw [mem_blk0_4]
  intro a
  match a with
  | ⟨0, _⟩ => show win0_4.index _ (0 : Fin 2) * 2000 ≤ (i 0).val ∧ (i 0).val < win0_4.index _ (0 : Fin 2) * 2000 + 2000; rw [e0]; show (i 0).val / 2000 * 2000 ≤ (i 0).val ∧ (i 0).val < (i 0).val / 2000 * 2000 + 2000; omega
  | ⟨1, _⟩ => show win0_4.index _ (1 : Fin 2) * 128 ≤ (i 1).val ∧ (i 1).val < win0_4.index _ (1 : Fin 2) * 128 + 128; rw [e1]; omega

/-- Features times weights, as one function of the arrays the region finds. -/
def G0_3 (c : Dev nD) : S50000x128.Idx → EReal := fun i =>
  ∑ k : Fin 256, A0_0 V c (ix2 (i 0) k) * A0_1 V c (ix2 k (i 1))

/-- The same, each row scaled by its factor. -/
def G0_4 (c : Dev nD) : S50000x128.Idx → EReal := fun i => G0_3 V c i * A0_2 V c (ix2 (i 0) (0 : Fin 1))

/-- What point t writes back of result 3 is block t of `G0_3`. -/
theorem flushed0_3 (c : Dev nD) (t : Fin cfg0.N) :
    (dat0 V c).flushed 3 t = ((cfg0.win 3).blk t).view.read (Elt Ideal) (G0_3 V c) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x128) hz]
  funext j
  obtain ⟨p, q, rfl⟩ : ∃ (p : Fin 2000) (q : Fin 128), j = ix2 p q := ⟨j 0, j 1, eq_ix2 j⟩
  show (k0_pay1 (F := Ideal) (iblk0 V c 0 t) (iblk0 V c 1 t) (ix2 p q) : EReal) = G0_3 V c (((cfg0.win 3).blk t).view.emb (ix2 p q))
  rw [emb0_3]
  refine (pay0_1 _ _ p q).trans ?_
  refine Finset.sum_congr rfl fun k _ => ?_
  rw [read0_0, read0_1]

/-- What point t writes back of result 4 is block t of `G0_4`. -/
theorem flushed0_4 (c : Dev nD) (t : Fin cfg0.N) :
    (dat0 V c).flushed 4 t = ((cfg0.win 4).blk t).view.read (Elt Ideal) (G0_4 V c) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x128) hz, View.ld_unit_zero (S := S2000x1) hz]
  funext j
  obtain ⟨p, q, rfl⟩ : ∃ (p : Fin 2000) (q : Fin 128), j = ix2 p q := ⟨j 0, j 1, eq_ix2 j⟩
  show (k0_pay2 (F := Ideal) (iblk0 V c 0 t) (iblk0 V c 1 t) (iblk0 V c 2 t) (ix2 p q) : EReal) = G0_4 V c (((cfg0.win 4).blk t).view.emb (ix2 p q))
  rw [emb0_4]
  refine (pay0_2 _ _ _ p q).trans ?_
  refine congrArg₂ (fun a b : EReal => a * b) (Finset.sum_congr rfl fun k _ => ?_) (read0_2 V c t p)
  rw [read0_0, read0_1]

/-- Result 3 after the region. -/
theorem final0_3 (c : Dev nD) : (dat0 V c).arrAt 3 cfg0.N = G0_3 V c :=
  (dat0 V c).arrAt_eq_of_cover 3 (G0_3 V c) (fun t _ => flushed0_3 V c t) (covered0_3)

/-- Result 4 after the region. -/
theorem final0_4 (c : Dev nD) : (dat0 V c).arrAt 4 cfg0.N = G0_4 V c :=
  (dat0 V c).arrAt_eq_of_cover 4 (G0_4 V c) (fun t _ => flushed0_4 V c t) (covered0_4)

/-! ## Region 1: the first layer's combination, clamp and second product -/

/-- Region 1's index maps over its 25 points: a row-blocked window is at block (t, 0), a small operand at (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The arrays region 1 reads, as the region finds them, as plain functions into the extended reals. -/
abbrev A1_0 (c : Dev nD) : S50000x128.Idx → EReal := V c main_v24
abbrev A1_1 (c : Dev nD) : S50000x1.Idx → EReal := V c main_v13
abbrev A1_2 (c : Dev nD) : S50000x128.Idx → EReal := V c main_v14_0
abbrev A1_3 (c : Dev nD) : S1x128.Idx → EReal := V c main_v25
abbrev A1_4 (c : Dev nD) : S128x128.Idx → EReal := V c main_arg4

/-- Point t's block of operand 0, at local row p: row `row t p` of the array. -/
theorem read1_0 (c : Dev nD) (t : Fin cfg1.N) (p : Fin 2000) (k : Fin 128) :
    (iblk1 V c 0 t (ix2 p k) : EReal) = A1_0 V c (ix2 (row t p) k) := by
  obtain ⟨e0, e1, -, -, -, -, -, -, -, -, -, -, -, -⟩ := idx1 t
  show A1_0 V c (((cfg1.win 0).blk t).view.emb (ix2 p k)) = _
  refine congrArg _ ?_
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

/-- Point t's block of operand 1, at local row p: row `row t p` of the array. -/
theorem read1_1 (c : Dev nD) (t : Fin cfg1.N) (p : Fin 2000) :
    (iblk1 V c 1 t (ix2 p (0 : Fin 1)) : EReal) = A1_1 V c (ix2 (row t p) (0 : Fin 1)) := by
  obtain ⟨-, -, e0, e1, -, -, -, -, -, -, -, -, -, -⟩ := idx1 t
  show A1_1 V c (((cfg1.win 1).blk t).view.emb (ix2 p (0 : Fin 1))) = _
  refine congrArg _ ?_
  funext a; apply Fin.ext
  match a with
  | ⟨0, _⟩ => show win1_1.index t (0 : Fin 2) * 2000 + 1 * p.val = t.val * 2000 + p.val; omega
  | ⟨1, _⟩ => show win1_1.index t (1 : Fin 2) * 1 + 1 * 0 = 0; omega

/-- Point t's block of operand 2, at local row p: row `row t p` of the array. -/
theorem read1_2 (c : Dev nD) (t : Fin cfg1.N) (p : Fin 2000) (k : Fin 128) :
    (iblk1 V c 2 t (ix2 p k) : EReal) = A1_2 V c (ix2 (row t p) k) := by
  obtain ⟨-, -, -, -, e0, e1, -, -, -, -, -, -, -, -⟩ := idx1 t
  show A1_2 V c (((cfg1.win 2).blk t).view.emb (ix2 p k)) = _
  refine congrArg _ ?_
  funext a; apply Fin.ext
  match a with
  | ⟨0, _⟩ => show win1_2.index t (0 : Fin 2) * 2000 + 1 * p.val = t.val * 2000 + p.val; omega
  | ⟨1, _⟩ => show win1_2.index t (1 : Fin 2) * 128 + 1 * k.val = k.val; omega

/-- Point t's block of operand 3 is the whole array. -/
theorem read1_3 (c : Dev nD) (t : Fin cfg1.N) (q : Fin 128) :
    (iblk1 V c 3 t (ix2 (0 : Fin 1) q) : EReal) = A1_3 V c (ix2 (0 : Fin 1) q) := by
  obtain ⟨-, -, -, -, -, -, e0, e1, -, -, -, -, -, -⟩ := idx1 t
  show A1_3 V c (((cfg1.win 3).blk t).view.emb (ix2 (0 : Fin 1) q)) = _
  refine congrArg _ ?_
  funext a; apply Fin.ext
  match a with
  | ⟨0, _⟩ => show win1_3.index t (0 : Fin 2) * 1 + 1 * 0 = 0; omega
  | ⟨1, _⟩ => show win1_3.index t (1 : Fin 2) * 128 + 1 * q.val = q.val; omega

/-- Point t's block of operand 4 is the whole array. -/
theorem read1_4 (c : Dev nD) (t : Fin cfg1.N) (k : Fin 128) (q : Fin 128) :
    (iblk1 V c 4 t (ix2 k q) : EReal) = A1_4 V c (ix2 k q) := by
  obtain ⟨-, -, -, -, -, -, -, -, e0, e1, -, -, -, -⟩ := idx1 t
  show A1_4 V c (((cfg1.win 4).blk t).view.emb (ix2 k q)) = _
  refine congrArg _ ?_
  funext a; apply Fin.ext
  match a with
  | ⟨0, _⟩ => show win1_4.index t (0 : Fin 2) * 128 + 1 * k.val = k.val; omega
  | ⟨1, _⟩ => show win1_4.index t (1 : Fin 2) * 128 + 1 * q.val = q.val; omega

/-- Where point t's block of result 5 sits: rows `row t p`. -/
theorem emb1_5 (t : Fin cfg1.N) (p : Fin 2000) (q : Fin 128) :
    ((cfg1.win 5).blk t).view.emb (ix2 p q) = ix2 (row t p) q := by
  obtain ⟨-, -, -, -, -, -, -, -, -, -, e0, e1, -, -⟩ := idx1 t
  funext a; apply Fin.ext
  match a with
  | ⟨0, _⟩ => show win1_5.index t (0 : Fin 2) * 2000 + 1 * p.val = t.val * 2000 + p.val; omega
  | ⟨1, _⟩ => show win1_5.index t (1 : Fin 2) * 128 + 1 * q.val = q.val; omega

/-- An index is in point t's block of result 5 iff each coordinate is in the block's range. -/
theorem mem_blk1_5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v26_0).slice (win1_5.rect t)).set ↔ _
  rw [View.set_slice_whole, Rect.mem_set_unit]
  exact Iff.rfl

/-- The 25 blocks cover result 5: row r lies in block r / 2000. -/
theorem covered1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 2000, by show (i 0).val / 2000 < 25; omega⟩, flush1_5 _, ?_⟩
  obtain ⟨-, -, -, -, -, -, -, -, -, -, e0, e1, -, -⟩ := idx1 ⟨(i 0).val / 2000, by show (i 0).val / 2000 < 25; omega⟩
  rw [mem_blk1_5]
  intro a
  match a with
  | ⟨0, _⟩ => show win1_5.index _ (0 : Fin 2) * 2000 ≤ (i 0).val ∧ (i 0).val < win1_5.index _ (0 : Fin 2) * 2000 + 2000; rw [e0]; show (i 0).val / 2000 * 2000 ≤ (i 0).val ∧ (i 0).val < (i 0).val / 2000 * 2000 + 2000; omega
  | ⟨1, _⟩ => show win1_5.index _ (1 : Fin 2) * 128 ≤ (i 1).val ∧ (i 1).val < win1_5.index _ (1 : Fin 2) * 128 + 128; rw [e1]; omega

/-- Where point t's block of result 6 sits: rows `row t p`. -/
theorem emb1_6 (t : Fin cfg1.N) (p : Fin 2000) (q : Fin 128) :
    ((cfg1.win 6).blk t).view.emb (ix2 p q) = ix2 (row t p) q := by
  obtain ⟨-, -, -, -, -, -, -, -, -, -, -, -, e0, e1⟩ := idx1 t
  funext a; apply Fin.ext
  match a with
  | ⟨0, _⟩ => show win1_6.index t (0 : Fin 2) * 2000 + 1 * p.val = t.val * 2000 + p.val; omega
  | ⟨1, _⟩ => show win1_6.index t (1 : Fin 2) * 128 + 1 * q.val = q.val; omega

/-- An index is in point t's block of result 6 iff each coordinate is in the block's range. -/
theorem mem_blk1_6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v26_1).slice (win1_6.rect t)).set ↔ _
  rw [View.set_slice_whole, Rect.mem_set_unit]
  exact Iff.rfl

/-- The 25 blocks cover result 6: row r lies in block r / 2000. -/
theorem covered1_6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  refine ⟨⟨(i 0).val / 2000, by show (i 0).val / 2000 < 25; omega⟩, flush1_6 _, ?_⟩
  obtain ⟨-, -, -, -, -, -, -, -, -, -, -, -, e0, e1⟩ := idx1 ⟨(i 0).val / 2000, by show (i 0).val / 2000 < 25; omega⟩
  rw [mem_blk1_6]
  intro a
  match a with
  | ⟨0, _⟩ => show win1_6.index _ (0 : Fin 2) * 2000 ≤ (i 0).val ∧ (i 0).val < win1_6.index _ (0 : Fin 2) * 2000 + 2000; rw [e0]; show (i 0).val / 2000 * 2000 ≤ (i 0).val ∧ (i 0).val < (i 0).val / 2000 * 2000 + 2000; omega
  | ⟨1, _⟩ => show win1_6.index _ (1 : Fin 2) * 128 ≤ (i 1).val ∧ (i 1).val < win1_6.index _ (1 : Fin 2) * 128 + 128; rw [e1]; omega

/-- One entry of the first layer's clamped output, from the arrays the region finds. -/
def actA (c : Dev nD) (r : Fin 50000) (k : Fin 128) : EReal :=
  max ((A1_1 V c (ix2 r (0 : Fin 1)) * A1_0 V c (ix2 r k)
      + (A1_1 V c (ix2 r (0 : Fin 1)) * A1_1 V c (ix2 r (0 : Fin 1))) * A1_2 V c (ix2 r k)) + A1_3 V c (ix2 (0 : Fin 1) k)) zeroW

/-- The clamped rows times the second weight matrix. -/
def G1_5 (c : Dev nD) : S50000x128.Idx → EReal := fun i =>
  ∑ k : Fin 128, actA V c (i 0) k * A1_4 V c (ix2 k (i 1))

/-- The same, each row scaled by its factor. -/
def G1_6 (c : Dev nD) : S50000x128.Idx → EReal := fun i => G1_5 V c i * A1_1 V c (ix2 (i 0) (0 : Fin 1))

/-- The body's clamped entry on point t's blocks is the arrays' at row `row t p`. -/
theorem act_eq (c : Dev nD) (t : Fin cfg1.N) (p : Fin 2000) (k : Fin 128) :
    act (iblk1 V c 1 t) (iblk1 V c 3 t) (iblk1 V c 0 t) (iblk1 V c 2 t) p k = actA V c (row t p) k := by
  unfold act actA
  rw [read1_1, read1_0, read1_2, read1_3]

/-- What point t writes back of result 5 is block t of `G1_5`. -/
theorem flushed1_5 (c : Dev nD) (t : Fin cfg1.N) :
    (dat1 V c).flushed 5 t = ((cfg1.win 5).blk t).view.read (Elt Ideal) (G1_5 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  show (k1_pay2 (F := Ideal) (iblk1 V c 1 t) (iblk1 V c 3 t) (iblk1 V c 0 t) (iblk1 V c 2 t) (iblk1 V c 4 t) (ix2 p q) : EReal) = G1_5 V c (((cfg1.win 5).blk t).view.emb (ix2 p q))
  rw [emb1_5]
  refine (pay1_2 _ _ _ _ _ p q).trans ?_
  refine Finset.sum_congr rfl fun k _ => ?_
  rw [act_eq, read1_4]

/-- What point t writes back of result 6 is block t of `G1_6`. -/
theorem flushed1_6 (c : Dev nD) (t : Fin cfg1.N) :
    (dat1 V c).flushed 6 t = ((cfg1.win 6).blk t).view.read (Elt Ideal) (G1_6 V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S1x128) hz, View.ld_unit_zero (S := S128x128) hz]
  funext j
  obtain ⟨p, q, rfl⟩ : ∃ (p : Fin 2000) (q : Fin 128), j = ix2 p q := ⟨j 0, j 1, eq_ix2 j⟩
  show (k1_pay3 (F := Ideal) (iblk1 V c 1 t) (iblk1 V c 3 t) (iblk1 V c 0 t) (iblk1 V c 2 t) (iblk1 V c 4 t) (ix2 p q) : EReal) = G1_6 V c (((cfg1.win 6).blk t).view.emb (ix2 p q))
  rw [emb1_6]
  refine (pay1_3 _ _ _ _ _ p q).trans ?_
  refine congrArg₂ (fun a b : EReal => a * b) (Finset.sum_congr rfl fun k _ => ?_) (read1_1 V c t p)
  rw [act_eq, read1_4]

/-- Result 5 after the region. -/
theorem final1_5 (c : Dev nD) : (dat1 V c).arrAt 5 cfg1.N = G1_5 V c :=
  (dat1 V c).arrAt_eq_of_cover 5 (G1_5 V c) (fun t _ => flushed1_5 V c t) (covered1_5)

/-- Result 6 after the region. -/
theorem final1_6 (c : Dev nD) : (dat1 V c).arrAt 6 cfg1.N = G1_6 V c :=
  (dat1 V c).arrAt_eq_of_cover 6 (G1_6 V c) (fun t _ => flushed1_6 V c t) (covered1_6)

/-! ## Region 2: the second layer's combination -/

/-- Region 2's index maps over its 25 points: a row-blocked window is at block (t, 0), a small operand at (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The arrays region 2 reads, as the region finds them, as plain functions into the extended reals. -/
abbrev A2_0 (c : Dev nD) : S50000x128.Idx → EReal := V c main_v36
abbrev A2_1 (c : Dev nD) : S50000x1.Idx → EReal := V c main_v13
abbrev A2_2 (c : Dev nD) : S50000x128.Idx → EReal := V c main_v26_0
abbrev A2_3 (c : Dev nD) : S1x128.Idx → EReal := V c main_v37

/-- Point t's block of operand 0, at local row p: row `row t p` of the array. -/
theorem read2_0 (c : Dev nD) (t : Fin cfg2.N) (p : Fin 2000) (k : Fin 128) :
    (iblk2 V c 0 t (ix2 p k) : EReal) = A2_0 V c (ix2 (row t p) k) := by
  obtain ⟨e0, e1, -, -, -, -, -, -, -, -⟩ := idx2 t
  show A2_0 V c (((cfg2.win 0).blk t).view.emb (ix2 p k)) = _
  refine congrArg _ ?_
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

/-- Point t's block of operand 1, at local row p: row `row t p` of the array. -/
theorem read2_1 (c : Dev nD) (t : Fin cfg2.N) (p : Fin 2000) :
    (iblk2 V c 1 t (ix2 p (0 : Fin 1)) : EReal) = A2_1 V c (ix2 (row t p) (0 : Fin 1)) := by
  obtain ⟨-, -, e0, e1, -, -, -, -, -, -⟩ := idx2 t
  show A2_1 V c (((cfg2.win 1).blk t).view.emb (ix2 p (0 : Fin 1))) = _
  refine congrArg _ ?_
  funext a; apply Fin.ext
  match a with
  | ⟨0, _⟩ => show win2_1.index t (0 : Fin 2) * 2000 + 1 * p.val = t.val * 2000 + p.val; omega
  | ⟨1, _⟩ => show win2_1.index t (1 : Fin 2) * 1 + 1 * 0 = 0; omega

/-- Point t's block of operand 2, at local row p: row `row t p` of the array. -/
theorem read2_2 (c : Dev nD) (t : Fin cfg2.N) (p : Fin 2000) (k : Fin 128) :
    (iblk2 V c 2 t (ix2 p k) : EReal) = A2_2 V c (ix2 (row t p) k) := by
  obtain ⟨-, -, -, -, e0, e1, -, -, -, -⟩ := idx2 t
  show A2_2 V c (((cfg2.win 2).blk t).view.emb (ix2 p k)) = _
  refine congrArg _ ?_
  funext a; apply Fin.ext
  match a with
  | ⟨0, _⟩ => show win2_2.index t (0 : Fin 2) * 2000 + 1 * p.val = t.val * 2000 + p.val; omega
  | ⟨1, _⟩ => show win2_2.index t (1 : Fin 2) * 128 + 1 * k.val = k.val; omega

/-- Point t's block of operand 3 is the whole array. -/
theorem read2_3 (c : Dev nD) (t : Fin cfg2.N) (q : Fin 128) :
    (iblk2 V c 3 t (ix2 (0 : Fin 1) q) : EReal) = A2_3 V c (ix2 (0 : Fin 1) q) := by
  obtain ⟨-, -, -, -, -, -, e0, e1, -, -⟩ := idx2 t
  show A2_3 V c (((cfg2.win 3).blk t).view.emb (ix2 (0 : Fin 1) q)) = _
  refine congrArg _ ?_
  funext a; apply Fin.ext
  match a with
  | ⟨0, _⟩ => show win2_3.index t (0 : Fin 2) * 1 + 1 * 0 = 0; omega
  | ⟨1, _⟩ => show win2_3.index t (1 : Fin 2) * 128 + 1 * q.val = q.val; omega

/-- Where point t's block of result 4 sits: rows `row t p`. -/
theorem emb2_4 (t : Fin cfg2.N) (p : Fin 2000) (q : Fin 128) :
    ((cfg2.win 4).blk t).view.emb (ix2 p q) = ix2 (row t p) q := by
  obtain ⟨-, -, -, -, -, -, -, -, e0, e1⟩ := idx2 t
  funext a; apply Fin.ext
  match a with
  | ⟨0, _⟩ => show win2_4.index t (0 : Fin 2) * 2000 + 1 * p.val = t.val * 2000 + p.val; omega
  | ⟨1, _⟩ => show win2_4.index t (1 : Fin 2) * 128 + 1 * q.val = q.val; omega

/-- An index is in point t's block of result 4 iff each coordinate is in the block's range. -/
theorem mem_blk2_4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v38).slice (win2_4.rect t)).set ↔ _
  rw [View.set_slice_whole, Rect.mem_set_unit]
  exact Iff.rfl

/-- The 25 blocks cover result 4: row r lies in block r / 2000. -/
theorem covered2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  refine ⟨⟨(i 0).val / 2000, by show (i 0).val / 2000 < 25; omega⟩, flush2_4 _, ?_⟩
  obtain ⟨-, -, -, -, -, -, -, -, e0, e1⟩ := idx2 ⟨(i 0).val / 2000, by show (i 0).val / 2000 < 25; omega⟩
  rw [mem_blk2_4]
  intro a
  match a with
  | ⟨0, _⟩ => show win2_4.index _ (0 : Fin 2) * 2000 ≤ (i 0).val ∧ (i 0).val < win2_4.index _ (0 : Fin 2) * 2000 + 2000; rw [e0]; show (i 0).val / 2000 * 2000 ≤ (i 0).val ∧ (i 0).val < (i 0).val / 2000 * 2000 + 2000; omega
  | ⟨1, _⟩ => show win2_4.index _ (1 : Fin 2) * 128 ≤ (i 1).val ∧ (i 1).val < win2_4.index _ (1 : Fin 2) * 128 + 128; rw [e1]; omega

/-- The second layer's combination, from the arrays the region finds. -/
def G2_4 (c : Dev nD) : S50000x128.Idx → EReal := fun i =>
  (A2_1 V c (ix2 (i 0) (0 : Fin 1)) * A2_0 V c (ix2 (i 0) (i 1))
    + (A2_1 V c (ix2 (i 0) (0 : Fin 1)) * A2_1 V c (ix2 (i 0) (0 : Fin 1))) * A2_2 V c (ix2 (i 0) (i 1))) + A2_3 V c (ix2 (0 : Fin 1) (i 1))

/-- What point t writes back of the result is block t of `G2_4`. -/
theorem flushed2_4 (c : Dev nD) (t : Fin cfg2.N) :
    (dat2 V c).flushed 4 t = ((cfg2.win 4).blk t).view.read (Elt Ideal) (G2_4 V c) := by
  show (cfg2.win 4).cut (grid2.coords t) ((dat2 V c).after 4 t) = _
  rw [after2_4]
  unfold out2_4
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  show (k2_pay1 (F := Ideal) (iblk2 V c 1 t) (iblk2 V c 3 t) (iblk2 V c 0 t) (iblk2 V c 2 t) (ix2 p q) : EReal) = G2_4 V c (((cfg2.win 4).blk t).view.emb (ix2 p q))
  rw [emb2_4]
  refine (pay2_1 _ _ _ _ p q).trans ?_
  rw [read2_1, read2_0, read2_2, read2_3]
  rfl

/-- The result after the region. -/
theorem final2_4 (c : Dev nD) : (dat2 V c).arrAt 4 cfg2.N = G2_4 V c :=
  (dat2 V c).arrAt_eq_of_cover 4 (G2_4 V c) (fun t _ => flushed2_4 V c t) (covered2_4)

/-! ## The results read at an index -/

theorem final0_3_apply (c : Dev nD) (r : Fin 50000) (q : Fin 128) :
    ((dat0 V c).arrAt 3 cfg0.N : S50000x128.Idx → EReal) (ix2 r q) = ∑ k : Fin 256, A0_0 V c (ix2 r k) * A0_1 V c (ix2 k q) := by
  rw [final0_3]; rfl

theorem final0_4_apply (c : Dev nD) (r : Fin 50000) (q : Fin 128) :
    ((dat0 V c).arrAt 4 cfg0.N : S50000x128.Idx → EReal) (ix2 r q)
      = (∑ k : Fin 256, A0_0 V c (ix2 r k) * A0_1 V c (ix2 k q)) * A0_2 V c (ix2 r (0 : Fin 1)) := by
  rw [final0_4]; rfl

theorem final1_5_apply (c : Dev nD) (r : Fin 50000) (q : Fin 128) :
    ((dat1 V c).arrAt 5 cfg1.N : S50000x128.Idx → EReal) (ix2 r q) = ∑ k : Fin 128, actA V c r k * A1_4 V c (ix2 k q) := by
  rw [final1_5]; rfl

theorem final1_6_apply (c : Dev nD) (r : Fin 50000) (q : Fin 128) :
    ((dat1 V c).arrAt 6 cfg1.N : S50000x128.Idx → EReal) (ix2 r q)
      = (∑ k : Fin 128, actA V c r k * A1_4 V c (ix2 k q)) * A1_1 V c (ix2 r (0 : Fin 1)) := by
  rw [final1_6]; rfl

theorem final2_4_apply (c : Dev nD) (r : Fin 50000) (q : Fin 128) :
    ((dat2 V c).arrAt 4 cfg2.N : S50000x128.Idx → EReal) (ix2 r q)
      = (A2_1 V c (ix2 r (0 : Fin 1)) * A2_0 V c (ix2 r q)
          + (A2_1 V c (ix2 r (0 : Fin 1)) * A2_1 V c (ix2 r (0 : Fin 1))) * A2_2 V c (ix2 r q)) + A2_3 V c (ix2 (0 : Fin 1) q) := by
  rw [final2_4]; rfl

end Cert.Gcn.KBlocks

end
-- ==== Proof.KValue.lean ====
/-
  The idealized kernel's result, as a function of the launched arrays.

  The buffer contents at the segment boundaries are read in program order.  The first region leaves the features times
  the first weights, h1, and h1 with each row scaled by its node's factor; the host sums the scaled rows over the
  edges; the second region combines the edge sum, the node's own row and the bias, clamps at zero, multiplies by the
  second weights (h2) and scales again; the host sums again; the third region combines once more.  Index by index
  this is the specification's `outK`.
-/
import proofs.«138598_j40003325395140_2_alg».proof.Proof.KHost
import proofs.«138598_j40003325395140_2_alg».proof.Proof.KBlocks
import proofs.«138598_j40003325395140_2_alg».proof.Proof.LibRows

set_option maxRecDepth 16384

noncomputable section

namespace Cert.Gcn.KValue

open Idealize.ShloMosaic Idealize.ShloMosaic.TcCoe Idealize.ShloMosaic.ValueIdx Idealize.SL.Sem
open Cert.KernelIdeal Cert.KernelIdeal.Gen Cert.Gcn Cert.Gcn.KHost Cert.Gcn.KBlocks
open scoped BigOperators

variable (m : (ℓ : Loc nD τ sig) → Buf (Elt Ideal) ℓ) (ρ : Dev nD → PrngReg)

/-- The launched float arrays as functions of their coordinates. -/
def xF (c : Dev nD) : Fin 50000 → Fin 256 → EReal := fun r k => (m ((c.tc : Thread nD τ).loc main_arg0) : S50000x256.Idx → EReal) (ix2 r k)
def w1F (c : Dev nD) : Fin 256 → Fin 128 → EReal := fun k q => (m ((c.tc : Thread nD τ).loc main_arg2) : S256x128.Idx → EReal) (ix2 k q)
def b1F (c : Dev nD) : Fin 128 → EReal := fun q => (m ((c.tc : Thread nD τ).loc main_arg3) : S128.Idx → EReal) (ix1 q)
def w2F (c : Dev nD) : Fin 128 → Fin 128 → EReal := fun k q => (m ((c.tc : Thread nD τ).loc main_arg4) : S128x128.Idx → EReal) (ix2 k q)
def b2F (c : Dev nD) : Fin 128 → EReal := fun q => (m ((c.tc : Thread nD τ).loc main_arg5) : S128.Idx → EReal) (ix1 q)

/-- The degree factors, the first product, the first layer's clamped output, the second product. -/
def dv (c : Dev nD) : Fin 50000 → EReal := dvK (eiF m c)
def h1 (c : Dev nD) : Fin 50000 → Fin 128 → EReal := mm (xF m c) (w1F m c)
def o1 (c : Dev nD) : Fin 50000 → Fin 128 → EReal := fun r k =>
  relu (layerK (eiF m c 0) (eiF m c 1) (dv m c) (h1 m c) (b1F m c) r k)
def h2 (c : Dev nD) : Fin 50000 → Fin 128 → EReal := mm (o1 m c) (w2F m c)

/-- The buffers the regions leave, as plain functions into the extended reals. -/
abbrev B_h1 (c : Dev nD) : S50000x128.Idx → EReal := W2 m ρ c (Proc.devRef .tc main_v14_0)
abbrev B_hs1 (c : Dev nD) : S50000x128.Idx → EReal := W2 m ρ c (Proc.devRef .tc main_v14_1)
abbrev B_h2 (c : Dev nD) : S50000x128.Idx → EReal := W4 m ρ c (Proc.devRef .tc main_v26_0)
abbrev B_hs2 (c : Dev nD) : S50000x128.Idx → EReal := W4 m ρ c (Proc.devRef .tc main_v26_1)
abbrev B_out (c : Dev nD) : S50000x128.Idx → EReal := W6 m ρ c (Proc.devRef .tc main_v38)

/-! ## After the first region -/

theorem A0_0_eq (c : Dev nD) (r : Fin 50000) (k : Fin 256) : A0_0 (V1 m ρ) c (ix2 r k) = xF m c r k := by
  show (W1 m ρ c (Proc.devRef .tc main_arg0) : S50000x256.Idx → EReal) (ix2 r k) = _
  rw [W1_arg0]
  rfl

theorem A0_1_eq (c : Dev nD) (k : Fin 256) (q : Fin 128) : A0_1 (V1 m ρ) c (ix2 k q) = w1F m c k q := by
  show (W1 m ρ c (Proc.devRef .tc main_arg2) : S256x128.Idx → EReal) (ix2 k q) = _
  rw [W1_arg2]
  rfl

theorem A0_2_eq (c : Dev nD) (r : Fin 50000) : A0_2 (V1 m ρ) c (ix2 r (0 : Fin 1)) = dv m c r := by
  show (W1 m ρ c (Proc.devRef .tc main_v13) : S50000x1.Idx → EReal) (ix2 r (0 : Fin 1)) = _
  rw [W1_v13, dinv_read]
  rfl

theorem W2_h1 (c : Dev nD) (r : Fin 50000) (q : Fin 128) :
    B_h1 m ρ c (ix2 r q) = h1 m c r q := by
  refine (congrFun (W2_arr m ρ c 3) (ix2 r q)).trans ((final0_3_apply (V1 m ρ) c r q).trans ?_)
  simp only [A0_0_eq, A0_1_eq]
  rfl

theorem W2_hs1 (c : Dev nD) (r : Fin 50000) (q : Fin 128) :
    B_hs1 m ρ c (ix2 r q) = h1 m c r q * dv m c r := by
  refine (congrFun (W2_arr m ρ c 4) (ix2 r q)).trans ((final0_4_apply (V1 m ρ) c r q).trans ?_)
  show _ = (∑ k : Fin 256, xF m c r k * w1F m c k q) * dv m c r
  refine congrArg₂ (fun a b : EReal => a * b) (Finset.sum_congr rfl fun k _ => ?_) (A0_2_eq m ρ c r)
  rw [A0_0_eq, A0_1_eq]

/-! ## Entering and leaving the second region -/

theorem A1_0_eq (c : Dev nD) (r : Fin 50000) (k : Fin 128) : A1_0 (V3 m ρ) c (ix2 r k)
    = edgeSum (eiF m c 1) (fun e q => h1 m c (node (eiF m c 0 e)) q * dv m c (node (eiF m c 0 e))) r k := by
  refine (congrFun (W3_v24 m ρ c) (ix2 r k)).trans ((agg_read m c (B_hs1 m ρ c) r k).trans ?_)
  unfold edgeSum
  refine Finset.sum_congr rfl fun e _ => ?_
  beta_reduce
  rw [W2_hs1]

theorem A1_1_eq (c : Dev nD) (r : Fin 50000) : A1_1 (V3 m ρ) c (ix2 r (0 : Fin 1)) = dv m c r := by
  show (W3 m ρ c (Proc.devRef .tc main_v13) : S50000x1.Idx → EReal) (ix2 r (0 : Fin 1)) = _
  rw [W3_v13, dinv_read]
  rfl

theorem A1_2_eq (c : Dev nD) (r : Fin 50000) (k : Fin 128) : A1_2 (V3 m ρ) c (ix2 r k) = h1 m c r k := by
  refine (congrFun (W3_v14_0 m ρ c) (ix2 r k)).trans ?_
  exact W2_h1 m ρ c r k

theorem A1_3_eq (c : Dev nD) (k : Fin 128) : A1_3 (V3 m ρ) c (ix2 (0 : Fin 1) k) = b1F m c k := by
  show (W3 m ρ c (Proc.devRef .tc main_v25) : S1x128.Idx → EReal) (ix2 (0 : Fin 1) k) = _
  rw [W3_v25, Cert.Lib.Rows.shapeCast_vec_row_apply _ shapeCasts_S128_S1x128 k]
  rfl

theorem A1_4_eq (c : Dev nD) (k q : Fin 128) : A1_4 (V3 m ρ) c (ix2 k q) = w2F m c k q := by
  show (W3 m ρ c (Proc.devRef .tc main_arg4) : S128x128.Idx → EReal) (ix2 k q) = _
  rw [W3_arg4]
  rfl

theorem actA_eq (c : Dev nD) (r : Fin 50000) (k : Fin 128) : actA (V3 m ρ) c r k = o1 m c r k := by
  unfold actA
  rw [A1_0_eq, A1_1_eq, A1_2_eq, A1_3_eq]
  rfl

theorem W4_h2 (c : Dev nD) (r : Fin 50000) (q : Fin 128) :
    B_h2 m ρ c (ix2 r q) = h2 m c r q := by
  refine (congrFun (W4_arr m ρ c 5) (ix2 r q)).trans ((final1_5_apply (V3 m ρ) c r q).trans ?_)
  simp only [actA_eq, A1_4_eq]
  rfl

theorem W4_hs2 (c : Dev nD) (r : Fin 50000) (q : Fin 128) :
    B_hs2 m ρ c (ix2 r q) = h2 m c r q * dv m c r := by
  refine (congrFun (W4_arr m ρ c 6) (ix2 r q)).trans ((final1_6_apply (V3 m ρ) c r q).trans ?_)
  show _ = (∑ k : Fin 128, o1 m c r k * w2F m c k q) * dv m c r
  refine congrArg₂ (fun a b : EReal => a * b) (Finset.sum_congr rfl fun k _ => ?_) (A1_1_eq m ρ c r)
  rw [actA_eq, A1_4_eq]

/-! ## Entering and leaving the third region -/

theorem A2_0_eq (c : Dev nD) (r : Fin 50000) (q : Fin 128) : A2_0 (V5 m ρ) c (ix2 r q)
    = edgeSum (eiF m c 1) (fun e q => h2 m c (node (eiF m c 0 e)) q * dv m c (node (eiF m c 0 e))) r q := by
  refine (congrFun (W5_v36 m ρ c) (ix2 r q)).trans ((agg_read m c (B_hs2 m ρ c) r q).trans ?_)
  unfold edgeSum
  refine Finset.sum_congr rfl fun e _ => ?_
  beta_reduce
  rw [W4_hs2]

theorem A2_1_eq (c : Dev nD) (r : Fin 50000) : A2_1 (V5 m ρ) c (ix2 r (0 : Fin 1)) = dv m c r := by
  show (W5 m ρ c (Proc.devRef .tc main_v13) : S50000x1.Idx → EReal) (ix2 r (0 : Fin 1)) = _
  rw [W5_v13, dinv_read]
  rfl

theorem A2_2_eq (c : Dev nD) (r : Fin 50000) (q : Fin 128) : A2_2 (V5 m ρ) c (ix2 r q) = h2 m c r q := by
  refine (congrFun (W5_v26_0 m ρ c) (ix2 r q)).trans ?_
  exact W4_h2 m ρ c r q

theorem A2_3_eq (c : Dev nD) (q : Fin 128) : A2_3 (V5 m ρ) c (ix2 (0 : Fin 1) q) = b2F m c q := by
  show (W5 m ρ c (Proc.devRef .tc main_v37) : S1x128.Idx → EReal) (ix2 (0 : Fin 1) q) = _
  rw [W5_v37, Cert.Lib.Rows.shapeCast_vec_row_apply _ shapeCasts_S128_S1x128 q]
  rfl

/-- The result buffer at (r, q): the second layer of the launched arrays. -/
theorem kernel_value_at (c : Dev nD) (r : Fin 50000) (q : Fin 128) :
    B_out m ρ c (ix2 r q)
      = layerK (eiF m c 0) (eiF m c 1) (dv m c) (h2 m c) (b2F m c) r q := by
  refine (congrFun (W6_arr m ρ c 4) (ix2 r q)).trans ((final2_4_apply (V5 m ρ) c r q).trans ?_)
  rw [A2_1_eq, A2_0_eq, A2_2_eq, A2_3_eq]
  rfl

/-- The second layer over the named intermediates is the specification's network of the launched arrays. -/
theorem outK_eq (c : Dev nD) (r : Fin 50000) (q : Fin 128) :
    layerK (eiF m c 0) (eiF m c 1) (dv m c) (h2 m c) (b2F m c) r q
      = Cert.Gcn.outK (fun r k => (m ((c.tc : Thread nD τ).loc main_arg0) : S50000x256.Idx → EReal) (ix2 r k))
          (fun o e => (m ((c.tc : Thread nD τ).loc main_arg1) : S2x800000.Idx → BitVec 32) (ix2 o e))
          (fun k q => (m ((c.tc : Thread nD τ).loc main_arg2) : S256x128.Idx → EReal) (ix2 k q))
          (fun q => (m ((c.tc : Thread nD τ).loc main_arg3) : S128.Idx → EReal) (ix1 q))
          (fun k q => (m ((c.tc : Thread nD τ).loc main_arg4) : S128x128.Idx → EReal) (ix2 k q))
          (fun q => (m ((c.tc : Thread nD τ).loc main_arg5) : S128.Idx → EReal) (ix1 q)) r q := rfl

/-- THE RESULT: the buffer the last region writes holds the two-layer network of the launched arrays. -/
theorem kernel_value (c : Dev nD) :
    (W6 m ρ c (Proc.devRef .tc main_v38) : S50000x128.Idx → EReal)
      = fun i => Cert.Gcn.outK (fun r k => (m ((c.tc : Thread nD τ).loc main_arg0) : S50000x256.Idx → EReal) (ix2 r k))
          (fun o e => (m ((c.tc : Thread nD τ).loc main_arg1) : S2x800000.Idx → BitVec 32) (ix2 o e))
          (fun k q => (m ((c.tc : Thread nD τ).loc main_arg2) : S256x128.Idx → EReal) (ix2 k q))
          (fun q => (m ((c.tc : Thread nD τ).loc main_arg3) : S128.Idx → EReal) (ix1 q))
          (fun k q => (m ((c.tc : Thread nD τ).loc main_arg4) : S128x128.Idx → EReal) (ix2 k q))
          (fun q => (m ((c.tc : Thread nD τ).loc main_arg5) : S128.Idx → EReal) (ix1 q)) (i 0) (i 1) := by
  funext i
  obtain ⟨r, q, rfl⟩ : ∃ (r : Fin 50000) (q : Fin 128), i = ix2 r q := ⟨i 0, i 1, eq_ix2 i⟩
  exact (kernel_value_at m ρ c r q).trans (outK_eq m c r q)

end Cert.Gcn.KValue

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«138598_j40003325395140_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.RefValue.lean ====
/-
  The reference program's value.

  The reference is a two-layer graph convolution written with array primitives: the loop edges are appended to the
  edge list by a concatenation with the node numbering, the degrees are a segment sum of ones, the messages are rows
  gathered at the (wrapped) source words and scaled by the product of the two ends' degree factors, the aggregation
  is a segment sum of the messages at the target words, and the bias is added to every row.  Read at an output
  index (r, c), each of these steps is a plain expression of its operands at indices, and composing them gives the
  network `Cert.Gcn.outR` of the specification: the sums are the exact sums over the extended reals, over the edge
  list with the loop edges in it.

  The file first states each composite step once, over arbitrary operands of the program's literal shapes (the
  loop-edge concatenation, the degree factors, one whole layer); then reads the program's values through them, the
  second layer being the same text on other operands; the two matrix products and the clamp at zero join the layers.
-/
import proofs.«138598_j40003325395140_2_alg».proof.Proof.Gen.ReferenceIdeal.Read
import proofs.«138598_j40003325395140_2_alg».proof.Proof.Spec
import proofs.«138598_j40003325395140_2_alg».proof.Proof.LibGraphOps
import proofs.«138598_j40003325395140_2_alg».proof.Proof.LibRowGather
import proofs.«138598_j40003325395140_2_alg».proof.Proof.LibVecGather
import proofs.«138598_j40003325395140_2_alg».proof.Proof.LibRowBlocks

noncomputable section

namespace Cert.Gcn.RefValue

open Cert.ReferenceIdeal Cert.ReferenceIdeal.Gen Cert.ReferenceIdeal.Read
open Idealize.ShloMosaic Idealize.ShloMosaic.ValueIdx Idealize.ShloMosaic.RowGather Idealize.ShloMosaic.VecGather
open Cert.Lib.GraphOps Cert.Lib.RowBroadcast Cert.Lib.HostColumns
open scoped BigOperators

/-! ### The printed dimension records are the generic ones -/

/-- The row scatter's dimension numbers are the generic row scatter's. -/
theorem scat_rows_eq : scatter_S50000x128_S850000x1_S850000x128_1_0_0_1
    = Cert.Lib.ScatterAdd.rowDims 50000 850000 128 Gen.scatter_S50000x128_S850000x1_S850000x128_1_0_0_1_wf := rfl

/-- The entry scatter's dimension numbers are the generic entry scatter's. -/
theorem scat_vec_eq : scatter_S50000_S850000x1_S850000_n_0_0_1
    = Cert.Lib.ScatterAdd.vecDims 50000 850000 Gen.scatter_S50000_S850000x1_S850000_n_0_0_1_wf := rfl

/-- The row gather's dimension numbers are the generic row gather's. -/
theorem gath_rows_eq : gather_S50000x128_S850000x1_S850000x128_1_0_n_n_0_1_1128
    = Idealize.ShloMosaic.RowGather.rowDims 50000 850000 128 Gen.gather_S50000x128_S850000x1_S850000x128_1_0_n_n_0_1_1128_wf := rfl

/-- The entry gather's dimension numbers are the generic entry gather's. -/
theorem gath_vec_eq : gather_S50000_S850000x1_S850000_n_0_n_n_0_1_1
    = Idealize.ShloMosaic.VecGather.vecDims 50000 850000 Gen.gather_S50000_S850000x1_S850000_n_0_n_n_0_1_1_wf := rfl

/-! ### The loop edges appended -/

/-- THE EDGE LIST WITH LOOPS: 800000 index words followed by the node numbering 0, …, 49999, read at e: the word at e
    for e below 800000, and otherwise the number e - 800000 as a word. -/
theorem loops_apply (w : (⟨1, ![800000]⟩ : Shape).Idx → BitVec 32)
    (h : Shape.Concatenates [(⟨1, ![800000]⟩ : Shape), ⟨1, ![50000]⟩] ⟨1, ![850000]⟩ 0) (e : Fin 850000) :
    concatenate ⟨1, ![850000]⟩ 0 [⟨⟨1, ![800000]⟩, w⟩, ⟨⟨1, ![50000]⟩, iotaInDim ⟨1, ![50000]⟩ 32 0⟩] h (ix1 e)
      = withLoops (fun e => w (ix1 e)) e := by
  unfold withLoops
  by_cases he : e.val < 800000
  · rw [dif_pos he]
    exact concatenate_pair_apply_left 0 w _ h (ix1 e) rfl (ix1 ⟨e.val, he⟩) (fun b => by
      obtain rfl : b = 0 := Subsingleton.elim _ _; rfl)
  · rw [dif_neg he]
    have hlt : e.val - 800000 < 50000 := by have := e.isLt; omega
    refine (concatenate_pair_apply_right 0 w _ h (ix1 e) rfl rfl (ix1 ⟨e.val - 800000, hlt⟩)
      (fun b hb => absurd (Subsingleton.elim _ _) hb) ?_).trans rfl
    show e.val - 800000 + 800000 = e.val
    omega

/-! ### Pointwise operations at the ideal values, read at an index

Stated over arbitrary arrays, so that rewriting with them never opens the value of an entry. -/

/-- The inverse square root, entry by entry. -/
theorem rsqrt_at {s : Shape} (A : FVec Ideal s .f32) (j : s.Idx) :
    (Host.rsqrt A j : EReal) = Ideal.rsqrt (A j) := rfl

/-- The maximum, entry by entry. -/
theorem max_at {s : Shape} (A B : FVec Ideal s .f32) (j : s.Idx) :
    (maximumf A B j : EReal) = max (A j) (B j) := rfl

/-- The sum, entry by entry. -/
theorem add_at {s : Shape} (A B : FVec Ideal s .f32) (j : s.Idx) :
    (addf A B j : EReal) = A j + B j := rfl

/-- The product, entry by entry. -/
theorem mul_at {s : Shape} (A B : FVec Ideal s .f32) (j : s.Idx) :
    (mulf A B j : EReal) = A j * B j := rfl

/-- A constant array reads its word's value everywhere. -/
theorem const_at {s : Shape} (w : BitVec 32) (j : s.Idx) :
    (constant (F := Ideal) s .f32 w j : EReal) = Ideal.ofBits .f32 w := rfl

/-! ### One layer, over arbitrary operands -/

/-- A vector [C] broadcast onto axis 1 of the row [1, C] reads, at (0, q), the vector at q. -/
theorem bias_row_apply {α : Type} {C : Nat} (b : (⟨1, ![C]⟩ : Shape).Idx → α)
    (hb : (⟨1, ![C]⟩ : Shape).BroadcastsInDim ⟨2, ![1, C]⟩ (![1] : Fin 1 → Fin 2)) (q : Fin C) :
    broadcastInDim ⟨2, ![1, C]⟩ (![1] : Fin 1 → Fin 2) hb b (ix2 (0 : Fin 1) q) = b (ix1 q) := by
  refine broadcastInDim_apply (![1] : Fin 1 → Fin 2) hb b (ix2 0 q) (ix1 q) (fun a => ?_)
  match a with
  | ⟨0, _⟩ =>
    show q.val = if C = 1 then 0 else q.val
    by_cases hC : C = 1
    · rw [if_pos hC]; have := q.isLt; omega
    · rw [if_neg hC]

/-- The index words of a vector [850000], wrapped as array indexing wraps them, as a column [850000, 1]. -/
local notation "wcol" w:max => (broadcastInDim S850000x1 ![0] bcast_S850000_S850000x1_0
    (select (cmpi CmpIPredicate.slt w (broadcastInDim S850000 ![] bcast_S_S850000 (constantI S_ 32 0#32)))
      (addi w (broadcastInDim S850000 ![] bcast_S_S850000 (constantI S_ 32 50000#32))) w))

/-- THE DEGREE FACTORS: count the edges ending at each node, guard the count from below by one, take the inverse
    square root. -/
theorem dv_apply (d2 : IVec ⟨1, ![850000]⟩ 32) (i : Fin 50000) :
    (Host.rsqrt (maximumf
        (Host.scatterAdd scatter_S50000_S850000x1_S850000_n_0_0_1
          (broadcastInDim S50000 ![] bcast_S_S50000 (constant (F := Ideal) S_ .f32 0x00000000#32))
          (broadcastInDim S850000x1 ![0] bcast_S850000_S850000x1_0 d2)
          (broadcastInDim S850000 ![] bcast_S_S850000 (constant (F := Ideal) S_ .f32 0x3F800000#32)))
        (broadcastInDim S50000 ![] bcast_S_S50000 (constant (F := Ideal) S_ .f32 0x3F800000#32))) (ix1 i) : EReal)
      = rsq (indeg (fun e => d2 (ix1 e)) i) := by
  unfold rsq indeg
  rw [rsqrt_at, max_at, scat_vec_eq,
    count_apply _ bcast_S_S50000 bcast_S_S850000 bcast_S850000_S850000x1_0 d2 0x00000000#32 0x3F800000#32 i,
    broadcastInDim_scalar_apply (constant (F := Ideal) S_ .f32 0x3F800000#32) bcast_S_S50000 (ix1 i) ix0,
    const_at, Ideal.ofBits_zero_f32, zero_add]

/-- THE AGGREGATION PLUS BIAS: a segment sum of per-edge rows into zeros, the bias row added to every row. -/
theorem agg_bias_apply (d2 : IVec ⟨1, ![850000]⟩ 32) (upd : FVec Ideal ⟨2, ![850000, 128]⟩ .f32)
    (b : FVec Ideal ⟨1, ![128]⟩ .f32) (r : Fin 50000) (c : Fin 128) :
    (addf
      (Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 d2) upd)
      (broadcastInDim S50000x128 ![0, 1] bcast_S1x128_S50000x128_0_1 (broadcastInDim S1x128 ![1] bcast_S128_S1x128_1 b))
      (ix2 r c) : EReal)
    = (∑ e : Fin 850000, if (d2 (ix1 e)).toInt = (r.val : Int) then (upd (ix2 e c) : EReal) else 0) + b (ix1 c) := by
  rw [add_at, scat_rows_eq, aggregate_apply _ bcast_S_S50000x128 bcast_S850000_S850000x1_0 d2 upd 0x00000000#32 r c,
    broadcastInDim_row_apply _ bcast_S1x128_S50000x128_0_1 r c, bias_row_apply b bcast_S128_S1x128_1 c,
    Ideal.ofBits_zero_f32, zero_add]

/-- THE MESSAGE OF AN EDGE: the source node's row, scaled by the product of the two ends' factors. -/
theorem msg_apply (s2 d2 : IVec ⟨1, ![850000]⟩ 32) (dv : FVec Ideal ⟨1, ![50000]⟩ .f32)
    (H : FVec Ideal ⟨2, ![50000, 128]⟩ .f32) (e : Fin 850000) (c : Fin 128) :
    (mulf
      (Host.gather gather_S50000x128_S850000x1_S850000x128_1_0_n_n_0_1_1128 H (wcol s2))
      (broadcastInDim S850000x128 ![0, 1] bcast_S850000x1_S850000x128_0_1
        (broadcastInDim S850000x1 ![0] bcast_S850000_S850000x1_0
          (mulf (Host.gather gather_S50000_S850000x1_S850000_n_0_n_n_0_1_1 dv (wcol s2))
                (Host.gather gather_S50000_S850000x1_S850000_n_0_n_n_0_1_1 dv (wcol d2)))))
      (ix2 e c) : EReal)
    = H (ix2 (node (s2 (ix1 e))) c) * (dv (ix1 (node (s2 (ix1 e)))) * dv (ix1 (node (d2 (ix1 e))))) := by
  unfold node
  rw [mul_at, gath_rows_eq, gather_rows_apply (by decide) _ H (wcol s2) e c,
    spread_apply _ bcast_S850000_S850000x1_0 bcast_S850000x1_S850000x128_0_1 e c, mul_at,
    gath_vec_eq, gather_vec_apply (by decide) _ dv (wcol s2) e, gather_vec_apply (by decide) _ dv (wcol d2) e,
    wrapped_col_apply 50000 s2 bcast_S_S850000 bcast_S850000_S850000x1_0 e,
    wrapped_col_apply 50000 d2 bcast_S_S850000 bcast_S850000_S850000x1_0 e]

/-- ONE LAYER, as the host spells it, read at (r, c): the layer of the specification. -/
theorem layer_apply (s2 d2 : IVec ⟨1, ![850000]⟩ 32) (dv : FVec Ideal ⟨1, ![50000]⟩ .f32)
    (H : FVec Ideal ⟨2, ![50000, 128]⟩ .f32) (b : FVec Ideal ⟨1, ![128]⟩ .f32) (r : Fin 50000) (c : Fin 128) :
    (addf
      (Host.scatterAdd scatter_S50000x128_S850000x1_S850000x128_1_0_0_1
        (broadcastInDim S50000x128 ![] bcast_S_S50000x128 (constant (F := Ideal) S_ .f32 0x00000000#32))
        (broadcastInDim S850000x1 ![0] bcast_S850000_S850000x1_0 d2)
        (mulf
          (Host.gather gather_S50000x128_S850000x1_S850000x128_1_0_n_n_0_1_1128 H (wcol s2))
          (broadcastInDim S850000x128 ![0, 1] bcast_S850000x1_S850000x128_0_1
            (broadcastInDim S850000x1 ![0] bcast_S850000_S850000x1_0
              (mulf (Host.gather gather_S50000_S850000x1_S850000_n_0_n_n_0_1_1 dv (wcol s2))
                    (Host.gather gather_S50000_S850000x1_S850000_n_0_n_n_0_1_1 dv (wcol d2)))))))
      (broadcastInDim S50000x128 ![0, 1] bcast_S1x128_S50000x128_0_1 (broadcastInDim S1x128 ![1] bcast_S128_S1x128_1 b))
      (ix2 r c) : EReal)
    = layerR (fun e => s2 (ix1 e)) (fun e => d2 (ix1 e)) (fun i => dv (ix1 i)) (fun n q => H (ix2 n q))
        (fun q => b (ix1 q)) r c := by
  rw [agg_bias_apply d2 _ b r c]
  unfold layerR edgeSum
  refine congrArg (fun t : EReal => t + b (ix1 c)) (Finset.sum_congr rfl fun e _ => ?_)
  rw [msg_apply s2 d2 dv H e c]

/-! ### The program's values

Each value of the printed program is one of the generic spellings above on earlier values; the two layers are the
same text on other operands. -/

/-- The edge sources with the loop edges appended (first layer's copy). -/
theorem v6_apply (x1 : (⟨S2x800000, .i32⟩ : BufTy).Contents (Elt Ideal)) (e : Fin 850000) :
    val_main_v6 (F := Ideal) x1 (ix1 e) = withLoops (fun e => x1 (ix2 (0 : Fin 2) e)) e := by
  refine (loops_apply (val_main_v1 (F := Ideal) x1) concatenates_S800000_S50000_S850000_d0 e).trans ?_
  refine congrArg (fun w => withLoops w e) (funext fun e' => ?_)
  exact edge_row_apply 0 (by decide) x1 slices_S2x800000_S1x800000_0_0 shapeCasts_S1x800000_S800000 e'

/-- The edge targets with the loop edges appended (first layer's copy). -/
theorem v7_apply (x1 : (⟨S2x800000, .i32⟩ : BufTy).Contents (Elt Ideal)) (e : Fin 850000) :
    val_main_v7 (F := Ideal) x1 (ix1 e) = withLoops (fun e => x1 (ix2 (1 : Fin 2) e)) e := by
  refine (loops_apply (val_main_v3 (F := Ideal) x1) concatenates_S800000_S50000_S850000_d0 e).trans ?_
  refine congrArg (fun w => withLoops w e) (funext fun e' => ?_)
  exact edge_row_apply 1 (by decide) x1 slices_S2x800000_S1x800000_1_0 shapeCasts_S1x800000_S800000 e'

/-- The edge sources with the loop edges appended (second layer's copy). -/
theorem v49_apply (x1 : (⟨S2x800000, .i32⟩ : BufTy).Contents (Elt Ideal)) (e : Fin 850000) :
    val_main_v49 (F := Ideal) x1 (ix1 e) = withLoops (fun e => x1 (ix2 (0 : Fin 2) e)) e := by
  refine (loops_apply (val_main_v1 (F := Ideal) x1) concatenates_S800000_S50000_S850000_d0 e).trans ?_
  refine congrArg (fun w => withLoops w e) (funext fun e' => ?_)
  exact edge_row_apply 0 (by decide) x1 slices_S2x800000_S1x800000_0_0 shapeCasts_S1x800000_S800000 e'

/-- The edge targets with the loop edges appended (second layer's copy). -/
theorem v50_apply (x1 : (⟨S2x800000, .i32⟩ : BufTy).Contents (Elt Ideal)) (e : Fin 850000) :
    val_main_v50 (F := Ideal) x1 (ix1 e) = withLoops (fun e => x1 (ix2 (1 : Fin 2) e)) e := by
  refine (loops_apply (val_main_v3 (F := Ideal) x1) concatenates_S800000_S50000_S850000_d0 e).trans ?_
  refine congrArg (fun w => withLoops w e) (funext fun e' => ?_)
  exact edge_row_apply 1 (by decide) x1 slices_S2x800000_S1x800000_1_0 shapeCasts_S1x800000_S800000 e'

/-- The degree factors (first layer's copy). -/
theorem v14_apply (x1 : (⟨S2x800000, .i32⟩ : BufTy).Contents (Elt Ideal)) (i : Fin 50000) :
    (val_main_v14 (F := Ideal) x1 (ix1 i) : EReal) = dvR (fun o e => x1 (ix2 o e)) i := by
  refine (dv_apply (val_main_v7 (F := Ideal) x1) i).trans ?_
  unfold dvR
  exact congrArg (fun w => rsq (indeg w i)) (funext fun e => v7_apply x1 e)

/-- The degree factors (second layer's copy). -/
theorem v57_apply (x1 : (⟨S2x800000, .i32⟩ : BufTy).Contents (Elt Ideal)) (i : Fin 50000) :
    (val_main_v57 (F := Ideal) x1 (ix1 i) : EReal) = dvR (fun o e => x1 (ix2 o e)) i := by
  refine (dv_apply (val_main_v50 (F := Ideal) x1) i).trans ?_
  unfold dvR
  exact congrArg (fun w => rsq (indeg w i)) (funext fun e => v50_apply x1 e)

/-- The first product's dimension numbers are the plain rows-by-columns ones. -/
theorem dot1_eq : dot_S50000x256_S256x128_S50000x128_1_0_0_1_n_n = DotDims.plain 50000 256 128 := rfl

/-- The second product's dimension numbers are the plain rows-by-columns ones. -/
theorem dot2_eq : dot_S50000x128_S128x128_S50000x128_1_0_0_1_n_n = DotDims.plain 50000 128 128 := rfl

/-- A layer depends only on its operands. -/
theorem layerR_congr {s s' d d' : Fin 850000 → BitVec 32} {dv dv' : Fin 50000 → EReal}
    {h h' : Fin 50000 → Fin 128 → EReal} (b : Fin 128 → EReal)
    (hs : s = s') (hd : d = d') (hdv : dv = dv') (hh : h = h') : layerR s d dv h b = layerR s' d' dv' h' b := by
  subst hs hd hdv hh; rfl

/-- Node features times the first weight matrix. -/
theorem v4_apply (x0 : (⟨S50000x256, .f32⟩ : BufTy).Contents (Elt Ideal)) (x2 : (⟨S256x128, .f32⟩ : BufTy).Contents (Elt Ideal)) (n : Fin 50000) (q : Fin 128) :
    (val_main_v4 (F := Ideal) x0 x2 (ix2 n q) : EReal)
      = mm (fun r k => x0 (ix2 r k)) (fun k c => x2 (ix2 k c)) n q := by
  unfold val_main_v4 mm
  rw [dot1_eq, Cert.Lib.RowBlocks.dotGeneral_plain_apply]

/-- THE FIRST LAYER. -/
theorem v45_apply (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (r : Fin 50000) (c : Fin 128) :
    (val_main_v45 (F := Ideal) x0 x1 x2 x3 (ix2 r c) : EReal)
      = layerR (withLoops (fun e => x1 (ix2 (0 : Fin 2) e))) (withLoops (fun e => x1 (ix2 (1 : Fin 2) e)))
          (dvR (fun o e => x1 (ix2 o e))) (mm (fun r k => x0 (ix2 r k)) (fun k c => x2 (ix2 k c)))
          (fun q => x3 (ix1 q)) r c := by
  refine (layer_apply (val_main_v6 (F := Ideal) x1) (val_main_v7 (F := Ideal) x1) (val_main_v14 (F := Ideal) x1)
    (val_main_v4 (F := Ideal) x0 x2) x3 r c).trans ?_
  exact congrFun (congrFun (layerR_congr _ (funext (v6_apply x1)) (funext (v7_apply x1)) (funext (v14_apply x1))
    (funext fun n => funext fun q => v4_apply x0 x2 n q)) r) c

/-- The clamp at zero between the layers. -/
theorem v46_apply (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (r : Fin 50000) (k : Fin 128) :
    (val_main_v46 (F := Ideal) x0 x1 x2 x3 (ix2 r k) : EReal)
      = relu (layerR (withLoops (fun e => x1 (ix2 (0 : Fin 2) e))) (withLoops (fun e => x1 (ix2 (1 : Fin 2) e)))
          (dvR (fun o e => x1 (ix2 o e))) (mm (fun r k => x0 (ix2 r k)) (fun k c => x2 (ix2 k c)))
          (fun q => x3 (ix1 q)) r k) := by
  unfold val_main_v46 val_main_call0_v0 val_main_call0_cst relu
  rw [max_at, v45_apply,
    broadcastInDim_scalar_apply (constant (F := Ideal) S_ .f32 0x00000000#32) bcast_S_S50000x128 (ix2 r k) ix0, const_at]

/-- The clamped first layer times the second weight matrix. -/
theorem v47_apply (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (n : Fin 50000) (q : Fin 128) :
    (val_main_v47 (F := Ideal) x0 x1 x2 x3 x4 (ix2 n q) : EReal)
      = mm (fun r k => relu (layerR (withLoops (fun e => x1 (ix2 (0 : Fin 2) e)))
          (withLoops (fun e => x1 (ix2 (1 : Fin 2) e))) (dvR (fun o e => x1 (ix2 o e)))
          (mm (fun r k => x0 (ix2 r k)) (fun k c => x2 (ix2 k c))) (fun q => x3 (ix1 q)) r k))
          (fun k c => x4 (ix2 k c)) n q := by
  unfold val_main_v47 mm
  rw [dot2_eq, Cert.Lib.RowBlocks.dotGeneral_plain_apply]
  exact Finset.sum_congr rfl fun k _ => congrArg (fun t : EReal => t * x4 (ix2 k q)) (v46_apply x0 x1 x2 x3 n k)

/-- THE REFERENCE'S VALUE: the printed program's result, read at (r, c), is the two-layer network of the
    specification with the loop edges in the edge list. -/
theorem ref_value (x0 : (⟨S50000x256, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 50000) (c : Fin 128) :
    (val_main_v88 (F := Ideal) x0 x1 x2 x3 x4 x5 (ix2 r c) : EReal)
      = outR (fun r k => x0 (ix2 r k)) (fun o e => x1 (ix2 o e)) (fun k c => x2 (ix2 k c)) (fun c => x3 (ix1 c))
          (fun k c => x4 (ix2 k c)) (fun c => x5 (ix1 c)) r c := by
  refine (layer_apply (val_main_v49 (F := Ideal) x1) (val_main_v50 (F := Ideal) x1) (val_main_v57 (F := Ideal) x1)
    (val_main_v47 (F := Ideal) x0 x1 x2 x3 x4) x5 r c).trans ?_
  unfold outR
  exact congrFun (congrFun (layerR_congr _ (funext (v49_apply x1)) (funext (v50_apply x1)) (funext (v57_apply x1))
    (funext fun n => funext fun q => v47_apply x0 x1 x2 x3 x4 n q)) r) c

end Cert.Gcn.RefValue

end
-- ==== Proof.lean ====
/-
  The assembly of the certificate's five claims from the runs of the three programs, the reading of the
  precondition as "every float input is a real number", the two value theorems (the kernel's result is the
  network with the loop edges taken out of the sums, the reference's result is the network with the loop
  edges in the edge list) and the algebraic law that the two networks agree on real data.
-/
import proofs.«138598_j40003325395140_2_alg».proof.Defs
import proofs.«138598_j40003325395140_2_alg».proof.Proof.Gen.Kernel
import proofs.«138598_j40003325395140_2_alg».proof.Proof.Gen.Kernel.Skeleton
import proofs.«138598_j40003325395140_2_alg».proof.Proof.Gen.Kernel.Launch
import proofs.«138598_j40003325395140_2_alg».proof.Proof.Gen.Kernel.Points
import proofs.«138598_j40003325395140_2_alg».proof.Proof.Gen.Kernel.Frame
import proofs.«138598_j40003325395140_2_alg».proof.Proof.Gen.KernelIdeal
import proofs.«138598_j40003325395140_2_alg».proof.Proof.Gen.KernelIdeal.Skeleton
import proofs.«138598_j40003325395140_2_alg».proof.Proof.Gen.KernelIdeal.Launch
import proofs.«138598_j40003325395140_2_alg».proof.Proof.Gen.KernelIdeal.Points
import proofs.«138598_j40003325395140_2_alg».proof.Proof.Gen.KernelIdeal.Frame
import proofs.«138598_j40003325395140_2_alg».proof.Proof.Gen.ReferenceIdeal
import proofs.«138598_j40003325395140_2_alg».proof.Proof.Gen.ReferenceIdeal.Run
import proofs.«138598_j40003325395140_2_alg».proof.Proof.Gen.ReferenceIdeal.Read
import proofs.«138598_j40003325395140_2_alg».proof.Proof.Gen.Pre_finite_inputs
import Idealize.ShloMosaic.Adequacy
import Idealize.ShloMosaic.Init
import proofs.«138598_j40003325395140_2_alg».proof.Proof.KRun
import proofs.«138598_j40003325395140_2_alg».proof.Proof.FiniteInputs
import proofs.«138598_j40003325395140_2_alg».proof.Proof.Algebra
import proofs.«138598_j40003325395140_2_alg».proof.Proof.KValue
import proofs.«138598_j40003325395140_2_alg».proof.Proof.RefValue
import Idealize.ShloMosaic.Lib.ValueIdx

set_option maxRecDepth 16384

noncomputable section

namespace Cert.Proof

open Idealize.ShloMosaic Idealize.ShloMosaic.TcCoe Idealize.ShloMosaic.ValueIdx Idealize.SL.Sem

/-- The kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- THE TWO RESULTS AGREE on one device: from arguments that agree and are finite, the reference's result (the
    network with the loop edges in the edge list) is the kernel's result (the network with the loop edges taken
    out of the sums), entry by entry. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v88 m' c
      = Cert.KernelIdeal.Gen.W6 m ρ c (Proc.devRef .tc Cert.KernelIdeal.main_v38) := by
  rw [Cert.ReferenceIdeal.Read.val_main_v88_eq, h0, h1, h2, h3, h4, h5]
  obtain ⟨r0, r2, r3, r4, r5⟩ := Cert.Gcn.Finite.real_of_pre _ _ _ _ _ _ hpre
  funext i
  refine (congrArg (Cert.ReferenceIdeal.Read.val_main_v88 (F := Ideal) _ _ _ _ _ _) (eq_ix2 i)).trans ?_
  refine (Cert.Gcn.RefValue.ref_value _ _ _ _ _ _ (i 0) (i 1)).trans ?_
  refine Eq.trans ?_ (congrFun (Cert.Gcn.KValue.kernel_value m ρ c) i).symm
  exact (congrFun (congrFun (Cert.Gcn.Algebra.out_eq _ _ _ _ _ _
    (fun r k => r0 (ix2 r k)) (fun k q => r2 (ix2 k q)) (fun q => r3 (ix1 q)) (fun k q => r4 (ix2 k q))) (i 0)) (i 1)).symm

/-- At the ideal values the idealized kernel and the idealized reference, from memories that agree on the
    arguments, both run and end with equal results and unchanged arguments. -/
theorem algebraic : Cert.algebraic_KernelIdeal_ReferenceIdeal := by
  intro m ρ m' ρ' hpre hagree
  refine ⟨_, Cert.Gcn.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  exact result_eq m ρ m' c (hpre c) (hagree c).1 (hagree c).2.1 (hagree c).2.2.1 (hagree c).2.2.2.1
    (hagree c).2.2.2.2.1 (hagree c).2.2.2.2.2

/-- The five claims together, under the generated witnesses of the programs' stated side conditions. -/
theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
